-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128x4 : Shape := ⟨3, ![128, 128, 4]⟩
abbrev S128 : Shape := ⟨1, ![128]⟩
abbrev S3x4 : Shape := ⟨2, ![3, 4]⟩
abbrev S1x4 : Shape := ⟨2, ![1, 4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128x4 : S_.BroadcastsInDim S128x128x4 (![] : Fin 0 → Fin S128x128x4.rank)
  reducesTo_S128x128x4_S_d0_1_2 : S128x128x4.ReducesTo [0, 1, 2] S_
  bcast_S_S128 : S_.BroadcastsInDim S128 (![] : Fin 0 → Fin S128.rank)
  reducesTo_S128_S_d0 : S128.ReducesTo [0] S_
  bcast_S_S3x4 : S_.BroadcastsInDim S3x4 (![] : Fin 0 → Fin S3x4.rank)
  reducesTo_S3x4_S_d0_1 : S3x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg5 : FVec F S1x4 .f32) (main_v13 : IVec S_ 1) (main_v16 : IVec S3x4 1) : IVec S_ 1 :=
  let main_c_5 : IVec S_ 1 := constantI S_ 1 1#1
  let main_v17 : IVec S_ 1 := (fun x v => Host.reduce IntOp.andi x v reducesTo_S3x4_S_d0_1 h_S_) main_v16 main_c_5
  let main_v18 : IVec S_ 1 := andi main_v13 main_v17
  let main_v19 : FVec F S1x4 .f32 := Host.absf main_arg5
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128x4 .f32) (main_arg3 : FVec F S128 .f32) (main_arg4 : FVec F S3x4 .f32) (main_arg5 : FVec F S1x4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128x4 .f32 := Host.absf main_arg2
  let main_cst_0 : FVec F S_ .f32 := constant S_ .f32 0x7F800000#32
  let main_v5 : FVec F S128x128x4 .f32 := broadcastInDim S128x128x4 ![] bcast_S_S128x128x4 main_cst_0
  let main_v6 : IVec S128x128x4 1 := cmpf .olt main_v4 main_v5
  let main_c_1 : IVec S_ 1 := constantI S_ 1 1#1
  let main_v7 : IVec S_ 1 := (fun x v => Host.reduce IntOp.andi x v reducesTo_S128x128x4_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x4 .f32 := Host.absf main_arg4
  let main_cst_4 : FVec F S_ .f32 := constant S_ .f32 0x7F800000#32
  let main_v15 : FVec F S3x4 .f32 := broadcastInDim S3x4 ![] bcast_S_S3x4 main_cst_4
  let main_v16 : IVec S3x4 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128x4 : Shape := ⟨3, ![128, 128, 4]⟩
abbrev S128 : Shape := ⟨1, ![128]⟩
abbrev S3x4 : Shape := ⟨2, ![3, 4]⟩
abbrev S1x4 : Shape := ⟨2, ![1, 4]⟩
abbrev S1x1600000 : Shape := ⟨2, ![1, 1600000]⟩
abbrev S1600000 : Shape := ⟨1, ![1600000]⟩
abbrev S50000x3 : Shape := ⟨2, ![50000, 3]⟩
abbrev S_ : Shape := ⟨0, ![]⟩
abbrev S1600000x1 : Shape := ⟨2, ![1600000, 1]⟩
abbrev S1600000x3 : Shape := ⟨2, ![1600000, 3]⟩
abbrev S1600000x4 : Shape := ⟨2, ![1600000, 4]⟩
abbrev S8000x3 : Shape := ⟨2, ![8000, 3]⟩
abbrev S8000x4 : Shape := ⟨2, ![8000, 4]⟩
abbrev S3x1 : Shape := ⟨2, ![3, 1]⟩
abbrev S3 : Shape := ⟨1, ![3]⟩
abbrev S1x3 : Shape := ⟨2, ![1, 3]⟩
abbrev S8000 : Shape := ⟨1, ![8000]⟩
abbrev S8000x1 : Shape := ⟨2, ![8000, 1]⟩
abbrev S1x1 : Shape := ⟨2, ![1, 1]⟩
abbrev S128x4x128 : Shape := ⟨3, ![128, 4, 128]⟩
abbrev S128x512 : Shape := ⟨2, ![128, 512]⟩
abbrev S50000x512 : Shape := ⟨2, ![50000, 512]⟩
abbrev S2000x128 : Shape := ⟨2, ![2000, 128]⟩
abbrev S2000x512 : Shape := ⟨2, ![2000, 512]⟩
abbrev S50000x4x128 : Shape := ⟨3, ![50000, 4, 128]⟩
abbrev S50000x1x128 : Shape := ⟨3, ![50000, 1, 128]⟩
abbrev S1600000x128 : Shape := ⟨2, ![1600000, 128]⟩
abbrev S1x128 : Shape := ⟨2, ![1, 128]⟩

abbrev nBuf : Space → Nat
  | .hbm => 124
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128x4, .f32⟩
  | .hbm, ⟨3, _⟩ => ⟨S128, .f32⟩
  | .hbm, ⟨4, _⟩ => ⟨S3x4, .f32⟩
  | .hbm, ⟨5, _⟩ => ⟨S1x4, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000x3, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S1600000x3, .f32⟩
  | .hbm, ⟨30, _⟩ => ⟨S1600000x4, .f32⟩
  | .hbm, ⟨31, _⟩ => ⟨S128x4x128, .f32⟩
  | .hbm, ⟨32, _⟩ => ⟨S128x512, .f32⟩
  | .hbm, ⟨33, _⟩ => ⟨S50000x512, .f32⟩
  | .hbm, ⟨34, _⟩ => ⟨S50000x4x128, .f32⟩
  | .hbm, ⟨35, _⟩ => ⟨S_, .f32⟩
  | .hbm, ⟨36, _⟩ => ⟨S50000x128, .f32⟩
  | .hbm, ⟨37, _⟩ => ⟨S50000x1x128, .f32⟩
  | .hbm, ⟨38, _⟩ => ⟨S50000x128, .f32⟩
  | .hbm, ⟨39, _⟩ => ⟨S1600000x1, .f32⟩
  | .hbm, ⟨40, _⟩ => ⟨S1600000, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x128, .f32⟩
  | .hbm, ⟨58, _⟩ => ⟨S50000x1x128, .f32⟩
  | .hbm, ⟨59, _⟩ => ⟨S50000x128, .f32⟩
  | .hbm, ⟨60, _⟩ => ⟨S1600000x1, .f32⟩
  | .hbm, ⟨61, _⟩ => ⟨S1600000, .f32⟩
  | .hbm, ⟨62, _⟩ => ⟨S1600000x1, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x128, .f32⟩
  | .hbm, ⟨73, _⟩ => ⟨S1600000x128, .f32⟩
  | .hbm, ⟨74, _⟩ => ⟨S_, .f32⟩
  | .hbm, ⟨75, _⟩ => ⟨S50000x128, .f32⟩
  | .hbm, ⟨76, _⟩ => ⟨S1600000x1, .i32⟩
  | .hbm, ⟨77, _⟩ => ⟨S50000x128, .f32⟩
  | .hbm, ⟨78, _⟩ => ⟨S50000x128, .f32⟩
  | .hbm, ⟨79, _⟩ => ⟨S50000x1x128, .f32⟩
  | .hbm, ⟨80, _⟩ => ⟨S50000x128, .f32⟩
  | .hbm, ⟨81, _⟩ => ⟨S1600000x1, .f32⟩
  | .hbm, ⟨82, _⟩ => ⟨S1600000, .f32⟩
  | .hbm, ⟨83, _⟩ => ⟨S1600000x1, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x128, .f32⟩
  | .hbm, ⟨94, _⟩ => ⟨S1600000x128, .f32⟩
  | .hbm, ⟨95, _⟩ => ⟨S_, .f32⟩
  | .hbm, ⟨96, _⟩ => ⟨S50000x128, .f32⟩
  | .hbm, ⟨97, _⟩ => ⟨S1600000x1, .i32⟩
  | .hbm, ⟨98, _⟩ => ⟨S50000x128, .f32⟩
  | .hbm, ⟨99, _⟩ => ⟨S50000x128, .f32⟩
  | .hbm, ⟨100, _⟩ => ⟨S50000x1x128, .f32⟩
  | .hbm, ⟨101, _⟩ => ⟨S50000x128, .f32⟩
  | .hbm, ⟨102, _⟩ => ⟨S1600000x1, .f32⟩
  | .hbm, ⟨103, _⟩ => ⟨S1600000, .f32⟩
  | .hbm, ⟨104, _⟩ => ⟨S1600000x1, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x128, .f32⟩
  | .hbm, ⟨114, _⟩ => ⟨S1600000x128, .f32⟩
  | .hbm, ⟨115, _⟩ => ⟨S1600000x128, .f32⟩
  | .hbm, ⟨116, _⟩ => ⟨S_, .f32⟩
  | .hbm, ⟨117, _⟩ => ⟨S50000x128, .f32⟩
  | .hbm, ⟨118, _⟩ => ⟨S1600000x1, .i32⟩
  | .hbm, ⟨119, _⟩ => ⟨S50000x128, .f32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | .local _ .vmem, ⟨0, _⟩ => ⟨S8000x3, .f32⟩
  | .local _ .vmem, ⟨1, _⟩ => ⟨S8000x3, .f32⟩
  | .local _ .vmem, ⟨2, _⟩ => ⟨S3x4, .f32⟩
  | .local _ .vmem, ⟨3, _⟩ => ⟨S1x4, .f32⟩
  | .local _ .vmem, ⟨4, _⟩ => ⟨S8000x4, .f32⟩
  | .local _ .vmem, ⟨5, _⟩ => ⟨S8000x4, .f32⟩
  | .local _ .vmem, ⟨6, _⟩ => ⟨S2000x128, .f32⟩
  | .local _ .vmem, ⟨7, _⟩ => ⟨S2000x128, .f32⟩
  | .local _ .vmem, ⟨8, _⟩ => ⟨S128x512, .f32⟩
  | .local _ .vmem, ⟨9, _⟩ => ⟨S2000x512, .f32⟩
  | .local _ .vmem, ⟨10, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_9 : Ref sig .tc := ⟨.hbm, 84, rfl⟩
abbrev main_v67 : Ref sig .tc := ⟨.hbm, 85, rfl⟩
abbrev main_v68 : Ref sig .tc := ⟨.hbm, 86, rfl⟩
abbrev main_c_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_12 : Ref sig .tc := ⟨.hbm, 105, rfl⟩
abbrev main_v85 : Ref sig .tc := ⟨.hbm, 106, rfl⟩
abbrev main_v86 : Ref sig .tc := ⟨.hbm, 107, rfl⟩
abbrev main_c_13 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S50000x128_S50000x3_0_0 : S50000x128.Slices ![0, 0] S50000x3
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S3x4_S3x4_0_0 : ∀ a, (![0, 0] : Fin 2 → Nat) a + S3x4.size a ≤ S3x4.size a
  h_S3x4 : 0 < S3x4.numel
  inb_S1x4_S1x4_0_0 : ∀ a, (![0, 0] : Fin 2 → Nat) a + S1x4.size a ≤ S1x4.size a
  h_S1x4 : 0 < S1x4.numel
  slices_S3x4_o0_0_S3x1 : S3x4.Slices ![0, 0] S3x1
  shapeCasts_S3x1_S3 : S3x1.ShapeCasts S3
  shapeCasts_S3_S1x3 : S3.ShapeCasts S1x3
  broadcasts_S1x3_S8000x3 : S1x3.Broadcasts S8000x3
  reduces_S8000x3_S8000 : S8000x3.Reduces [1] S8000
  shapeCasts_S8000_S8000x1 : S8000.ShapeCasts S8000x1
  slices_S1x4_o0_0_S1x1 : S1x4.Slices ![0, 0] S1x1
  inpos_S1x1_p0_0 : ∀ a, (![0, 0] : Fin 2 → Nat) a < S1x1.size a
  slices_S3x4_o0_1_S3x1 : S3x4.Slices ![0, 1] S3x1
  slices_S1x4_o0_1_S1x1 : S1x4.Slices ![0, 1] S1x1
  slices_S3x4_o0_2_S3x1 : S3x4.Slices ![0, 2] S3x1
  slices_S1x4_o0_2_S1x1 : S1x4.Slices ![0, 2] S1x1
  slices_S3x4_o0_3_S3x1 : S3x4.Slices ![0, 3] S3x1
  slices_S1x4_o0_3_S1x1 : S1x4.Slices ![0, 3] S1x1
  concatenates_S8000x1_S8000x1_S8000x1_S8000x1_S8000x4_d1 : Shape.Concatenates [S8000x1, S8000x1, S8000x1, S8000x1] S8000x4 1
  inb_S8000x4_S8000x4_0_0 : ∀ a, (![0, 0] : Fin 2 → Nat) a + S8000x4.size a ≤ S8000x4.size a
  h_S8000x4 : 0 < S8000x4.numel
  transposes_S128x128x4_S128x4x128_0_2_1 : S128x128x4.Transposes [0, 2, 1] S128x4x128
  shapeCasts_S128x4x128_S128x512 : S128x4x128.ShapeCasts S128x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  shapeCasts_S50000x512_S50000x4x128 : S50000x512.ShapeCasts S50000x4x128
  bcast_S_S50000x128 : S_.BroadcastsInDim S50000x128 (![] : Fin 0 → Fin S50000x128.rank)
  slices_S50000x4x128_S50000x1x128_0_0_0 : S50000x4x128.Slices ![0, 0, 0] S50000x1x128
  shapeCasts_S50000x1x128_S50000x128 : S50000x1x128.ShapeCasts S50000x128
  slices_S1600000x4_S1600000x1_0_0 : S1600000x4.Slices ![0, 0] S1600000x1
  shapeCasts_S1600000x1_S1600000 : S1600000x1.ShapeCasts S1600000
  bcast_S1600000x1_S1600000x128_0_1 : S1600000x1.BroadcastsInDim S1600000x128 (![0, 1] : Fin 2 → Fin S1600000x128.rank)
  slices_S50000x4x128_S50000x1x128_0_1_0 : S50000x4x128.Slices ![0, 1, 0] S50000x1x128
  slices_S1600000x4_S1600000x1_0_1 : S1600000x4.Slices ![0, 1] S1600000x1
  slices_S50000x4x128_S50000x1x128_0_2_0 : S50000x4x128.Slices ![0, 2, 0] S50000x1x128
  slices_S1600000x4_S1600000x1_0_2 : S1600000x4.Slices ![0, 2] S1600000x1
  slices_S50000x4x128_S50000x1x128_0_3_0 : S50000x4x128.Slices ![0, 3, 0] S50000x1x128
  slices_S1600000x4_S1600000x1_0_3 : S1600000x4.Slices ![0, 3] S1600000x1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x3_S1600000x1_S1600000x3_1_0_n_n_0_1_13_wf : GatherDims.WF S50000x3 S1600000x1 S1600000x3 [1] [0] [] [0] [] 1 ![1, 3]
  dot_S2000x128_S128x512_S2000x512_1_0_0_1_n_n_wf : DotDims.WF S2000x128 S128x512 S2000x512 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1600000x3.size a
  hwx0_0 : ∀ i : grid0.Coords, EltTy.bits .f32 = 32 ∨ (Rect.block (s := S1600000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S1600000x4.size a
  hwx0_3 : ∀ i : grid0.Coords, EltTy.bits .f32 = 32 ∨ (Rect.block (s := S1600000x4) S8000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_v19) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128x4 : Shape := ⟨3, ![128, 128, 4]⟩
abbrev S128 : Shape := ⟨1, ![128]⟩
abbrev S3x4 : Shape := ⟨2, ![3, 4]⟩
abbrev S1x4 : Shape := ⟨2, ![1, 4]⟩
abbrev S1x1600000 : Shape := ⟨2, ![1, 1600000]⟩
abbrev S1600000 : Shape := ⟨1, ![1600000]⟩
abbrev S50000x3 : Shape := ⟨2, ![50000, 3]⟩
abbrev S_ : Shape := ⟨0, ![]⟩
abbrev S1600000x1 : Shape := ⟨2, ![1600000, 1]⟩
abbrev S1600000x3 : Shape := ⟨2, ![1600000, 3]⟩
abbrev S128x128x1 : Shape := ⟨3, ![128, 128, 1]⟩
abbrev S128x128 : Shape := ⟨2, ![128, 128]⟩
abbrev S1x1 : Shape := ⟨2, ![1, 1]⟩
abbrev S3x1 : Shape := ⟨2, ![3, 1]⟩
abbrev S3 : Shape := ⟨1, ![3]⟩
abbrev S1x3 : Shape := ⟨2, ![1, 3]⟩
abbrev S1600000x128 : Shape := ⟨2, ![1600000, 128]⟩
abbrev S1x128 : Shape := ⟨2, ![1, 128]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x1600000, .i32⟩
  | 2 => ⟨S128x128x4, .f32⟩
  | 3 => ⟨S128, .f32⟩
  | 4 => ⟨S3x4, .f32⟩
  | 5 => ⟨S1x4, .f32⟩
  | 6 => ⟨S1x1600000, .i32⟩
  | 7 => ⟨S1600000, .i32⟩
  | 8 => ⟨S1x1600000, .i32⟩
  | 9 => ⟨S1600000, .i32⟩
  | 10 => ⟨S50000x3, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x3, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x3, .f32⟩
  | 29 => ⟨S1600000x3, .f32⟩
  | 30 => ⟨S_, .f32⟩
  | 31 => ⟨S50000x128, .f32⟩
  | 32 => ⟨S128x128x1, .f32⟩
  | 33 => ⟨S128x128, .f32⟩
  | 34 => ⟨S50000x128, .f32⟩
  | 35 => ⟨S1x1, .f32⟩
  | 36 => ⟨S_, .f32⟩
  | 37 => ⟨S3x1, .f32⟩
  | 38 => ⟨S3, .f32⟩
  | 39 => ⟨S1x3, .f32⟩
  | 40 => ⟨S1600000x3, .f32⟩
  | 41 => ⟨S1600000x3, .f32⟩
  | 42 => ⟨S1600000x3, .f32⟩
  | 43 => ⟨S_, .f32⟩
  | 44 => ⟨S1600000, .f32⟩
  | 45 => ⟨S_, .f32⟩
  | 46 => ⟨S1600000, .f32⟩
  | 47 => ⟨S1600000, .f32⟩
  | 48 => ⟨S1600000, .f32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S50000x128, .f32⟩
  | 65 => ⟨S1600000x1, .i32⟩
  | 66 => ⟨S50000x128, .f32⟩
  | 67 => ⟨S50000x128, .f32⟩
  | 68 => ⟨S128x128x1, .f32⟩
  | 69 => ⟨S128x128, .f32⟩
  | 70 => ⟨S50000x128, .f32⟩
  | 71 => ⟨S1x1, .f32⟩
  | 72 => ⟨S_, .f32⟩
  | 73 => ⟨S3x1, .f32⟩
  | 74 => ⟨S3, .f32⟩
  | 75 => ⟨S1x3, .f32⟩
  | 76 => ⟨S1600000x3, .f32⟩
  | 77 => ⟨S1600000x3, .f32⟩
  | 78 => ⟨S1600000x3, .f32⟩
  | 79 => ⟨S_, .f32⟩
  | 80 => ⟨S1600000, .f32⟩
  | 81 => ⟨S_, .f32⟩
  | 82 => ⟨S1600000, .f32⟩
  | 83 => ⟨S1600000, .f32⟩
  | 84 => ⟨S1600000, .f32⟩
  | 85 => ⟨S1600000, .f32⟩
  | 86 => ⟨S1600000, .f32⟩
  | 87 => ⟨S1600000x1, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x128, .f32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S50000x128, .f32⟩
  | 104 => ⟨S128x128x1, .f32⟩
  | 105 => ⟨S128x128, .f32⟩
  | 106 => ⟨S50000x128, .f32⟩
  | 107 => ⟨S1x1, .f32⟩
  | 108 => ⟨S_, .f32⟩
  | 109 => ⟨S3x1, .f32⟩
  | 110 => ⟨S3, .f32⟩
  | 111 => ⟨S1x3, .f32⟩
  | 112 => ⟨S1600000x3, .f32⟩
  | 113 => ⟨S1600000x3, .f32⟩
  | 114 => ⟨S1600000x3, .f32⟩
  | 115 => ⟨S_, .f32⟩
  | 116 => ⟨S1600000, .f32⟩
  | 117 => ⟨S_, .f32⟩
  | 118 => ⟨S1600000, .f32⟩
  | 119 => ⟨S1600000, .f32⟩
  | 120 => ⟨S1600000, .f32⟩
  | 121 => ⟨S1600000, .f32⟩
  | 122 => ⟨S1600000, .f32⟩
  | 123 => ⟨S1600000x1, .f32⟩
  | 124 => ⟨S_, .i32⟩
  | 125 => ⟨S1600000, .i32⟩
  | 126 => ⟨S1600000, .i1⟩
  | 127 => ⟨S_, .i32⟩
  | _ => ⟨S50000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x128, .f32⟩
  | 6 => ⟨S1600000x128, .f32⟩
  | 7 => ⟨S_, .f32⟩
  | 8 => ⟨S50000x128, .f32⟩
  | 9 => ⟨S1600000x1, .i32⟩
  | 10 => ⟨S50000x128, .f32⟩
  | 11 => ⟨S50000x128, .f32⟩
  | 12 => ⟨S128x128x1, .f32⟩
  | 13 => ⟨S128x128, .f32⟩
  | 14 => ⟨S50000x128, .f32⟩
  | 15 => ⟨S1x1, .f32⟩
  | 16 => ⟨S_, .f32⟩
  | 17 => ⟨S3x1, .f32⟩
  | 18 => ⟨S3, .f32⟩
  | 19 => ⟨S1x3, .f32⟩
  | 20 => ⟨S1600000x3, .f32⟩
  | 21 => ⟨S1600000x3, .f32⟩
  | 22 => ⟨S1600000x3, .f32⟩
  | 23 => ⟨S_, .f32⟩
  | 24 => ⟨S1600000, .f32⟩
  | 25 => ⟨S_, .f32⟩
  | 26 => ⟨S1600000, .f32⟩
  | 27 => ⟨S1600000, .f32⟩
  | 28 => ⟨S1600000, .f32⟩
  | 29 => ⟨S1600000, .f32⟩
  | 30 => ⟨S1600000, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S1600000x128, .f32⟩
  | 42 => ⟨S1600000x128, .f32⟩
  | 43 => ⟨S_, .f32⟩
  | 44 => ⟨S50000x128, .f32⟩
  | 45 => ⟨S1600000x1, .i32⟩
  | 46 => ⟨S50000x128, .f32⟩
  | 47 => ⟨S50000x128, .f32⟩
  | 48 => ⟨S1x128, .f32⟩
  | 49 => ⟨S50000x128, .f32⟩
  | 50 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_10 : Ref sig .tc := ⟨.hbm, 88, rfl⟩
abbrev main_v70 : Ref sig .tc := ⟨.hbm, 89, rfl⟩
abbrev main_v71 : Ref sig .tc := ⟨.hbm, 90, rfl⟩
abbrev main_c_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_13 : Ref sig .tc := ⟨.hbm, 115, rfl⟩
abbrev main_v94 : Ref sig .tc := ⟨.hbm, 116, rfl⟩
abbrev main_cst_14 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_c_15 : Ref sig .tc := ⟨.hbm, 124, rfl⟩
abbrev main_v101 : Ref sig .tc := ⟨.hbm, 125, rfl⟩
abbrev main_v102 : Ref sig .tc := ⟨.hbm, 126, rfl⟩
abbrev main_c_16 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_17 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_18 : Ref sig .tc := ⟨.hbm, 151, rfl⟩
abbrev main_v125 : Ref sig .tc := ⟨.hbm, 152, rfl⟩
abbrev main_cst_19 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_c_20 : Ref sig .tc := ⟨.hbm, 160, rfl⟩
abbrev main_v132 : Ref sig .tc := ⟨.hbm, 161, rfl⟩
abbrev main_v133 : Ref sig .tc := ⟨.hbm, 162, rfl⟩
abbrev main_c_21 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_22 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S50000x128_S50000x3_0_0 : S50000x128.Slices ![0, 0] S50000x3
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S128x128x4_S128x128x1_0_0_0 : S128x128x4.Slices ![0, 0, 0] S128x128x1
  shapeCasts_S128x128x1_S128x128 : S128x128x1.ShapeCasts S128x128
  slices_S1x4_S1x1_0_0 : S1x4.Slices ![0, 0] S1x1
  shapeCasts_S1x1_S_ : S1x1.ShapeCasts S_
  slices_S3x4_S3x1_0_0 : S3x4.Slices ![0, 0] S3x1
  shapeCasts_S3x1_S3 : S3x1.ShapeCasts S3
  bcast_S3_S1x3_1 : S3.BroadcastsInDim S1x3 (![1] : Fin 1 → Fin S1x3.rank)
  bcast_S1x3_S1600000x3_0_1 : S1x3.BroadcastsInDim S1600000x3 (![0, 1] : Fin 2 → Fin S1600000x3.rank)
  reducesTo_S1600000x3_S1600000_d1 : S1600000x3.ReducesTo [1] S1600000
  h_S_ : 0 < S_.numel
  bcast_S1600000x1_S1600000x128_0_1 : S1600000x1.BroadcastsInDim S1600000x128 (![0, 1] : Fin 2 → Fin S1600000x128.rank)
  slices_S128x128x4_S128x128x1_0_0_1 : S128x128x4.Slices ![0, 0, 1] S128x128x1
  slices_S1x4_S1x1_0_1 : S1x4.Slices ![0, 1] S1x1
  slices_S3x4_S3x1_0_1 : S3x4.Slices ![0, 1] S3x1
  slices_S128x128x4_S128x128x1_0_0_2 : S128x128x4.Slices ![0, 0, 2] S128x128x1
  slices_S1x4_S1x1_0_2 : S1x4.Slices ![0, 2] S1x1
  slices_S3x4_S3x1_0_2 : S3x4.Slices ![0, 2] S3x1
  slices_S128x128x4_S128x128x1_0_0_3 : S128x128x4.Slices ![0, 0, 3] S128x128x1
  slices_S1x4_S1x1_0_3 : S1x4.Slices ![0, 3] S1x1
  slices_S3x4_S3x1_0_3 : S3x4.Slices ![0, 3] S3x1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x3_S1600000x1_S1600000x3_1_0_n_n_0_1_13_wf : GatherDims.WF S50000x3 S1600000x1 S1600000x3 [1] [0] [] [0] [] 1 ![1, 3]
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KernelRun.lean ====
/-
  The kernel program's run with its result named.  The program is five segments in a row — host operations, the
  Gaussian-weight region, host operations, the matrix-product region, host operations — and the buffer contents
  at each boundary are a fold through them: `W1` after the first host stretch, `W2` after the first region (its
  output array at what its write-backs leave), `W3`, `W4` likewise, `W5` at the return.  Every weakly fair
  execution ends with every unscoped buffer at `W5`; read at the result buffer this names the result, read at an
  argument it gives the argument back.
-/
import proofs.«118816_j66984309948597_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents `W5` read there, and the six argument arrays end as launched. -/
theorem run_named : θ_run defs (onTc (τ := τ) (main (F := F))) ⟨m, fun _ => 0, ρ⟩ (fun r => ∀ c : Dev nD,
      r.2.mem ((c.tc : Thread nD τ).loc main_v100) = W5 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v100 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.KernelTail.lean ====
/-
  What both programs do with the Gaussian weights and the supports.  For each of the four kernels k, with
  v_k the length-E vector of edge weights and s_k the N × 128 support:

    term_k = scatter-add into an N × 128 table of zeros, at row index row(e), of the rows  v_k(e) · s_k(col'(e), ·),

  where col'(e) is col(e) wrapped once (col(e) + N when col(e) < 0).  The result is
  ((((0 + term_0) + term_1) + term_2) + term_3) + bias, the bias repeated down the rows.  `combine` is that
  expression as one function of row, col, bias, the four weight vectors and the four supports; it is never
  opened: both programs apply it, to arguments proved equal.
-/
import proofs.«118816_j66984309948597_2_alg».proof.Proof.Gen.KernelIdeal.Launch
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- The N × 128 table of zeros. -/
def zerosN : (⟨S50000x128, .f32⟩ : BufTy).Contents (Elt F) :=
  broadcastInDim S50000x128 ![] bcast_S_S50000x128 (constant S_ .f32 0x00000000#32)

/-- An index vector with its negative entries wrapped once by N, as an E × 1 column. -/
def wrapCol (col : (⟨S1600000, .i32⟩ : BufTy).Contents (Elt F)) : (⟨S1600000x1, .i32⟩ : BufTy).Contents (Elt F) :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 50000#32))) col)

/-- One kernel's aggregated messages: rows of the support gathered at the wrapped column indices, scaled by the
    edge weights, and scatter-added at the row indices into zeros. -/
def edgeTerm (row col : (⟨S1600000, .i32⟩ : BufTy).Contents (Elt F)) (v : (⟨S1600000, .f32⟩ : BufTy).Contents (Elt F))
    (s : (⟨S50000x128, .f32⟩ : BufTy).Contents (Elt F)) : (⟨S50000x128, .f32⟩ : BufTy).Contents (Elt F) :=
  Host.scatterAdd scatter_S50000x128_S1600000x1_S1600000x128_1_0_0_1 zerosN
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 v))
      (Host.gather gather_S50000x128_S1600000x1_S1600000x128_1_0_n_n_0_1_1128 s (wrapCol col)))

/-- The four kernels' terms added in order onto zeros, then the bias added to every row. -/
def combine (row col : (⟨S1600000, .i32⟩ : BufTy).Contents (Elt F)) (bias : (⟨S128, .f32⟩ : BufTy).Contents (Elt F))
    (v0 v1 v2 v3 : (⟨S1600000, .f32⟩ : BufTy).Contents (Elt F))
    (s0 s1 s2 s3 : (⟨S50000x128, .f32⟩ : BufTy).Contents (Elt F)) : (⟨S50000x128, .f32⟩ : BufTy).Contents (Elt F) :=
  addf (addf (addf (addf (addf zerosN (edgeTerm row col v0 s0)) (edgeTerm row col v1 s1)) (edgeTerm row col v2 s2))
      (edgeTerm row col v3 s3))
    (broadcastInDim S50000x128 ![0, 1] bcast_S1x128_S50000x128_0_1 (broadcastInDim S1x128 ![1] bcast_S128_S1x128_1 bias))

set_option maxHeartbeats 4000000 in
/-- The last host stretch, from any contents `X` at its entry: the result buffer is `combine` of the row and column
    index vectors, the bias, the four weight vectors (the columns of the region's E × 4 output, each recast as a
    vector) and the four supports (the four 128-wide column groups of the region's N × 512 output). -/
theorem after_tail (X : Valuation τ sig (Elt F)) :
    StableHlo.after (hostOps2 (F := F)) X (Proc.devRef .tc main_v100) =
      combine (X (Proc.devRef .tc main_v1)) (X (Proc.devRef .tc main_v3)) (X (Proc.devRef .tc main_arg3))
        (StableHlo.after (hostOps2 (F := F)) X (Proc.devRef .tc main_v29))
        (StableHlo.after (hostOps2 (F := F)) X (Proc.devRef .tc main_v47))
        (StableHlo.after (hostOps2 (F := F)) X (Proc.devRef .tc main_v65))
        (StableHlo.after (hostOps2 (F := F)) X (Proc.devRef .tc main_v83))
        (StableHlo.after (hostOps2 (F := F)) X (Proc.devRef .tc main_v27))
        (StableHlo.after (hostOps2 (F := F)) X (Proc.devRef .tc main_v45))
        (StableHlo.after (hostOps2 (F := F)) X (Proc.devRef .tc main_v63))
        (StableHlo.after (hostOps2 (F := F)) X (Proc.devRef .tc main_v81)) := by
  after_results_simp
  unfold combine edgeTerm wrapCol zerosN
  rfl

end Cert.KernelIdeal.Tail

end
-- ==== Proof.RefTail.lean ====
/-
  The reference's result is the same combination (`combine`) of ITS row and column index vectors, the bias, its four
  Gaussian-weight vectors and its four supports: after the four weights and the four products, the reference
  applies, operation for operation, the gathers, products, scatter-additions and sums the kernel program applies.
-/
import proofs.«118816_j66984309948597_2_alg».proof.Proof.Gen.ReferenceIdeal.Read
import proofs.«118816_j66984309948597_2_alg».proof.Proof.KernelTail

set_option maxRecDepth 16384

noncomputable section

namespace Cert.ReferenceIdeal.RefTail

open Cert.ReferenceIdeal Cert.ReferenceIdeal.Gen Cert.ReferenceIdeal.Read
open Idealize.ShloMosaic Idealize.ShloMosaic.TcCoe Idealize.SL.Sem

variable {F : FTy → Type} [FloatOps F]

set_option maxHeartbeats 2000000 in
/-- The reference's last stage, as `combine` of its earlier stages. -/
theorem val_result_eq (x0 : (⟨S50000x128, .f32⟩ : BufTy).Contents (Elt F)) (x1 : (⟨S2x1600000, .i32⟩ : BufTy).Contents (Elt F))
    (x2 : (⟨S128x128x4, .f32⟩ : BufTy).Contents (Elt F)) (x3 : (⟨S128, .f32⟩ : BufTy).Contents (Elt F))
    (x4 : (⟨S3x4, .f32⟩ : BufTy).Contents (Elt F)) (x5 : (⟨S1x4, .f32⟩ : BufTy).Contents (Elt F)) :
    val_main_v147 (F := F) x0 x1 x2 x3 x4 x5 =
      Cert.KernelIdeal.Tail.combine (F := F) (val_main_v1 (F := F) x1) (val_main_v3 (F := F) x1) x3
        (val_main_v37 (F := F) x0 x1 x4 x5) (val_main_v68 (F := F) x0 x1 x4 x5)
        (val_main_v99 (F := F) x0 x1 x4 x5) (val_main_v130 (F := F) x0 x1 x4 x5)
        (val_main_v23 (F := F) x0 x2) (val_main_v54 (F := F) x0 x2) (val_main_v85 (F := F) x0 x2)
        (val_main_v116 (F := F) x0 x2) := by
  unfold Cert.KernelIdeal.Tail.combine Cert.KernelIdeal.Tail.edgeTerm Cert.KernelIdeal.Tail.wrapCol Cert.KernelIdeal.Tail.zerosN
  unfold val_main_v147 val_main_v146 val_main_v145 val_main_v144 val_main_v113 val_main_v82 val_main_v51 val_main_v20 val_main_cst
  unfold val_main_v143 val_main_v142 val_main_v141 val_main_cst_22 val_main_v140 val_main_v139 val_main_v138 val_main_v137 val_main_v136
    val_main_v135 val_main_v134 val_main_c_21 val_main_v133 val_main_v132 val_main_c_20 val_main_v131
  unfold val_main_v112 val_main_v111 val_main_v110 val_main_cst_17 val_main_v109 val_main_v108 val_main_v107 val_main_v106 val_main_v105
    val_main_v104 val_main_v103 val_main_c_16 val_main_v102 val_main_v101 val_main_c_15 val_main_v100
  unfold val_main_v81 val_main_v80 val_main_v79 val_main_cst_12 val_main_v78 val_main_v77 val_main_v76 val_main_v75 val_main_v74
    val_main_v73 val_main_v72 val_main_c_11 val_main_v71 val_main_v70 val_main_c_10 val_main_v69
  unfold val_main_v50 val_main_v49 val_main_v48 val_main_cst_7 val_main_v47 val_main_v46 val_main_v45 val_main_v44 val_main_v43
    val_main_v42 val_main_v41 val_main_c_6 val_main_v40 val_main_v39 val_main_c_5 val_main_v38
  rfl

end Cert.ReferenceIdeal.RefTail

end
-- ==== Proof.KernelFold.lean ====
/-
  The kernel program's boundary contents, read where the value proof needs them.  The contents at the return are the
  last host stretch applied to the contents `W4` at the second region's exit; there
  * the second region's output array is what its write-backs leave, and the first region's output array — which
    neither the two host operations between the regions nor the second region writes — is what ITS write-backs left;
  * the row and column index vectors are as the first host stretch computed them, and an argument is as launched;
  and at the regions' entries the arrays their windows read are the first stretch's coordinate differences, the
  arguments, and the weight tensor with its last two axes swapped and flattened.
-/
import proofs.«118816_j66984309948597_2_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## Buffers a host stretch does not write -/

theorem mid_keeps_main_v1 (X : Valuation τ sig (Elt F)) :
    StableHlo.after (hostOps1 (F := F)) X (Proc.devRef .tc main_v1) = X (Proc.devRef .tc main_v1) := by after_results
theorem mid_keeps_main_v3 (X : Valuation τ sig (Elt F)) :
    StableHlo.after (hostOps1 (F := F)) X (Proc.devRef .tc main_v3) = X (Proc.devRef .tc main_v3) := by after_results
theorem mid_keeps_main_arg3 (X : Valuation τ sig (Elt F)) :
    StableHlo.after (hostOps1 (F := F)) X (Proc.devRef .tc main_arg3) = X (Proc.devRef .tc main_arg3) := by after_results
theorem mid_keeps_main_v20 (X : Valuation τ sig (Elt F)) :
    StableHlo.after (hostOps1 (F := F)) X (Proc.devRef .tc main_v20) = X (Proc.devRef .tc main_v20) := by after_results
theorem mid_keeps_main_arg0 (X : Valuation τ sig (Elt F)) :
    StableHlo.after (hostOps1 (F := F)) X (Proc.devRef .tc main_arg0) = X (Proc.devRef .tc main_arg0) := by after_results
theorem mid_keeps_main_arg2 (X : Valuation τ sig (Elt F)) :
    StableHlo.after (hostOps1 (F := F)) X (Proc.devRef .tc main_arg2) = X (Proc.devRef .tc main_arg2) := by after_results
theorem first_keeps_main_arg0 (X : Valuation τ sig (Elt F)) :
    StableHlo.after (hostOps0 (F := F)) X (Proc.devRef .tc main_arg0) = X (Proc.devRef .tc main_arg0) := by after_results
theorem first_keeps_main_arg2 (X : Valuation τ sig (Elt F)) :
    StableHlo.after (hostOps0 (F := F)) X (Proc.devRef .tc main_arg2) = X (Proc.devRef .tc main_arg2) := by after_results
theorem first_keeps_main_arg3 (X : Valuation τ sig (Elt F)) :
    StableHlo.after (hostOps0 (F := F)) X (Proc.devRef .tc main_arg3) = X (Proc.devRef .tc main_arg3) := by after_results
theorem first_keeps_main_arg4 (X : Valuation τ sig (Elt F)) :
    StableHlo.after (hostOps0 (F := F)) X (Proc.devRef .tc main_arg4) = X (Proc.devRef .tc main_arg4) := by after_results
theorem first_keeps_main_arg5 (X : Valuation τ sig (Elt F)) :
    StableHlo.after (hostOps0 (F := F)) X (Proc.devRef .tc main_arg5) = X (Proc.devRef .tc main_arg5) := by after_results

/-- The weight tensor with its last two axes swapped, flattened to 128 × 512: what the host hands the second region. -/
def swapFlat (w : (⟨S128x128x4, .f32⟩ : BufTy).Contents (Elt F)) : (⟨S128x512, .f32⟩ : BufTy).Contents (Elt F) :=
  shapeCast S128x512 (transpose S128x4x128 [0, 2, 1] w transposes_S128x128x4_S128x4x128_0_2_1) shapeCasts_S128x4x128_S128x512

theorem mid_v22 (X : Valuation τ sig (Elt F)) :
    StableHlo.after (hostOps1 (F := F)) X (Proc.devRef .tc main_v22) = swapFlat (X (Proc.devRef .tc main_arg2)) := by
  after_results
  rfl

variable (m : (ℓ : Loc nD τ sig) → Buf (Elt F) ℓ) (ρ : Dev nD → PrngReg)

/-! ## At the second region's exit -/

theorem W4_v23 (c : Dev nD) : W4 m ρ c (Proc.devRef .tc main_v23) = (dat1 (V3 m ρ) c).arrAt 2 cfg1.N :=
  W4_arr m ρ c 2

theorem W4_v20 (c : Dev nD) : W4 m ρ c (Proc.devRef .tc main_v20) = (dat0 (V1 m ρ) c).arrAt 3 cfg0.N :=
  (W4_of_ne m ρ c main_v20 (by decide)).trans ((mid_keeps_main_v20 (W2 m ρ c)).trans (W2_arr m ρ c 3))

theorem W4_v1 (c : Dev nD) : W4 m ρ c (Proc.devRef .tc main_v1) = W1 m ρ c (Proc.devRef .tc main_v1) :=
  (W4_of_ne m ρ c main_v1 (by decide)).trans ((mid_keeps_main_v1 (W2 m ρ c)).trans (W2_of_ne m ρ c main_v1 (by decide)))

theorem W4_v3 (c : Dev nD) : W4 m ρ c (Proc.devRef .tc main_v3) = W1 m ρ c (Proc.devRef .tc main_v3) :=
  (W4_of_ne m ρ c main_v3 (by decide)).trans ((mid_keeps_main_v3 (W2 m ρ c)).trans (W2_of_ne m ρ c main_v3 (by decide)))

theorem W4_arg3 (c : Dev nD) : W4 m ρ c (Proc.devRef .tc main_arg3) = m ((c : Thread nD τ).loc main_arg3) :=
  (W4_of_ne m ρ c main_arg3 (by decide)).trans ((mid_keeps_main_arg3 (W2 m ρ c)).trans
    ((W2_of_ne m ρ c main_arg3 (by decide)).trans (first_keeps_main_arg3 (W0 m ρ c))))

/-! ## At the regions' entries -/

theorem V3_arg0 (c : Dev nD) : V3 m ρ c main_arg0 = m ((c : Thread nD τ).loc main_arg0) :=
  (mid_keeps_main_arg0 (W2 m ρ c)).trans ((W2_of_ne m ρ c main_arg0 (by decide)).trans (first_keeps_main_arg0 (W0 m ρ c)))

theorem V3_v22 (c : Dev nD) : V3 m ρ c main_v22 = swapFlat (m ((c : Thread nD τ).loc main_arg2)) :=
  (mid_v22 (W2 m ρ c)).trans (congrArg swapFlat
    ((W2_of_ne m ρ c main_arg2 (by decide)).trans (first_keeps_main_arg2 (W0 m ρ c))))

theorem V1_arg4 (c : Dev nD) : V1 m ρ c main_arg4 = m ((c : Thread nD τ).loc main_arg4) :=
  first_keeps_main_arg4 (W0 m ρ c)

theorem V1_arg5 (c : Dev nD) : V1 m ρ c main_arg5 = m ((c : Thread nD τ).loc main_arg5) :=
  first_keeps_main_arg5 (W0 m ρ c)

end Cert.KernelIdeal.Fold

end
-- ==== Proof.LibColumnGroups.lean ====
/-
  Three layout readings, general in the element type.

  * A column of an E × C array cut out as an E × 1 slice and recast as a length-E vector, read at e: the array's
    entry (e, k).
  * An N × 512 array viewed as N × 4 × 128, its group g cut out as N × 1 × 128 and recast as N × 128, read at
    (n, o): the array's entry (n, 128·g + o).
  * A 128 × 128 × 4 array with its last two axes swapped (to 128 × 4 × 128) and flattened to 128 × 512, read at
    (q, 128·g + o): the array's entry (q, o, g).
-/
import Idealize.ShloMosaic.Lib.Pipeline.Value
import Idealize.ShloMosaic.Lib.ValueIdx

noncomputable section

namespace Cert.EdgeConv.Layout

open Idealize.ShloMosaic Idealize.ShloMosaic.ValueIdx

variable {α : Type}

/-- Column `k` of an E × C array, as a vector, at `e`. -/
theorem sliceCol_cast_apply {E C : Nat} (k : Nat) (hk : k < C) (A : (⟨2, ![E, C]⟩ : Shape).Idx → α)
    (hs : (⟨2, ![E, C]⟩ : Shape).Slices ![0, k] ⟨2, ![E, 1]⟩) (hc : (⟨2, ![E, 1]⟩ : Shape).ShapeCasts ⟨1, ![E]⟩) (e : Fin E) :
    shapeCast ⟨1, ![E]⟩ (extractStridedSlice ⟨2, ![E, 1]⟩ ![0, k] A hs) hc (ix1 e) = A (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · exact extractStridedSlice_apply ![0, k] A hs (ix2 e (0 : Fin 1)) (ix2 e ⟨k, hk⟩) (fun a => match a with
      | ⟨0, _⟩ => by show e.val = 0 + e.val; omega
      | ⟨1, _⟩ => by show k = k + 0; omega)

/-- Group `g` (of four 128-wide column groups) of an N × 512 array, as an N × 128 array, at (n, o). -/
theorem group_apply {N : Nat} (g : Nat) (hg : g < 4) (B : (⟨2, ![N, 512]⟩ : Shape).Idx → α)
    (h3 : (⟨2, ![N, 512]⟩ : Shape).ShapeCasts ⟨3, ![N, 4, 128]⟩)
    (hs : (⟨3, ![N, 4, 128]⟩ : Shape).Slices ![0, g, 0] ⟨3, ![N, 1, 128]⟩)
    (h2 : (⟨3, ![N, 1, 128]⟩ : Shape).ShapeCasts ⟨2, ![N, 128]⟩) (n : Fin N) (o : Fin 128) :
    shapeCast ⟨2, ![N, 128]⟩ (extractStridedSlice ⟨3, ![N, 1, 128]⟩ ![0, g, 0] (shapeCast ⟨3, ![N, 4, 128]⟩ B h3) hs) h2 (ix2 n o)
      = B (ix2 n ⟨128 * g + o.val, by have := o.isLt; omega⟩) := by
  have ho := o.isLt
  refine (shapeCast_apply _ h2 (ix2 n o) (ix3 n (0 : Fin 1) o) ?_).trans ?_
  · rw [Shape.rowMajor_val_three, Shape.rowMajor_val_two]
    show (n.val * 1 + 0) * 128 + o.val = n.val * 128 + o.val
    omega
  refine (extractStridedSlice_apply ![0, g, 0] _ hs (ix3 n (0 : Fin 1) o) (ix3 n (⟨g, hg⟩ : Fin 4) o) (fun a => match a with
      | ⟨0, _⟩ => by show n.val = 0 + n.val; omega
      | ⟨1, _⟩ => by show g = g + 0; omega
      | ⟨2, _⟩ => by show o.val = 0 + o.val; omega)).trans ?_
  refine shapeCast_apply B h3 (ix3 n (⟨g, hg⟩ : Fin 4) o) (ix2 n ⟨128 * g + o.val, by omega⟩) ?_
  rw [Shape.rowMajor_val_three, Shape.rowMajor_val_two]
  show n.val * 512 + (128 * g + o.val) = (n.val * 4 + g) * 128 + o.val
  omega

/-- The 128 × 128 × 4 array with its last two axes swapped and flattened to 128 × 512, at (q, 128·g + o). -/
theorem swapFlat_apply (w : (⟨3, ![128, 128, 4]⟩ : Shape).Idx → α)
    (ht : (⟨3, ![128, 128, 4]⟩ : Shape).Transposes [0, 2, 1] ⟨3, ![128, 4, 128]⟩)
    (hc : (⟨3, ![128, 4, 128]⟩ : Shape).ShapeCasts ⟨2, ![128, 512]⟩) (q : Fin 128) (g : Fin 4) (o : Fin 128) :
    shapeCast ⟨2, ![128, 512]⟩ (transpose ⟨3, ![128, 4, 128]⟩ [0, 2, 1] w ht) hc
        (ix2 q ⟨128 * g.val + o.val, by have := g.isLt; have := o.isLt; omega⟩)
      = w (ix3 q o g) := by
  have hg := g.isLt
  have ho := o.isLt
  refine (shapeCast_apply _ hc (ix2 q ⟨128 * g.val + o.val, by omega⟩) (ix3 q g o) ?_).trans ?_
  · rw [Shape.rowMajor_val_three, Shape.rowMajor_val_two]
    show (q.val * 4 + g.val) * 128 + o.val = q.val * 512 + (128 * g.val + o.val)
    omega
  · exact transpose_apply [0, 2, 1] w ht (ix3 q g o) (ix3 q o g) (fun b => match b with
      | ⟨0, _⟩ => rfl | ⟨1, _⟩ => rfl | ⟨2, _⟩ => rfl)

end Cert.EdgeConv.Layout

end
-- ==== Proof.KernelValues.lean ====
/-
  The eight arrays the last host stretch hands to the shared combination, read off the two regions' outputs:
  weight vector k is column k of the E × 4 output of the Gaussian region, and support k is the k-th 128-wide column
  group of the N × 512 output of the product region.
-/
import proofs.«118816_j66984309948597_2_alg».proof.Proof.Gen.KernelIdeal.Launch
import proofs.«118816_j66984309948597_2_alg».proof.Proof.LibColumnGroups
import Idealize.ShloMosaic.Lib.StableHlo.Run

set_option maxRecDepth 16384

noncomputable section

namespace Cert.KernelIdeal.TailReads

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- Column 0 of the E × 4 array, as a vector. -/
def colVec0 (A : (⟨S1600000x4, .f32⟩ : BufTy).Contents (Elt F)) : (⟨S1600000, .f32⟩ : BufTy).Contents (Elt F) :=
  shapeCast S1600000 (extractStridedSlice S1600000x1 ![0, 0] A slices_S1600000x4_S1600000x1_0_0) shapeCasts_S1600000x1_S1600000

theorem colVec0_apply (A : (⟨S1600000x4, .f32⟩ : BufTy).Contents (Elt F)) (e : Fin 1600000) :
    colVec0 A (ix1 e) = A (ix2 e (0 : Fin 4)) :=
  Cert.EdgeConv.Layout.sliceCol_cast_apply (E := 1600000) (C := 4) (α := Elt F .f32) 0 (by decide) A
    slices_S1600000x4_S1600000x1_0_0 shapeCasts_S1600000x1_S1600000 e

set_option maxHeartbeats 2000000 in
theorem tail_weight0 (X : Valuation τ sig (Elt F)) :
    StableHlo.after (hostOps2 (F := F)) X (Proc.devRef .tc main_v29) = colVec0 (X (Proc.devRef .tc main_v20)) := by
  after_results_simp
  rfl

/-- Column group 0 of the N × 512 array, as an N × 128 array. -/
def group0 (B : (⟨S50000x512, .f32⟩ : BufTy).Contents (Elt F)) : (⟨S50000x128, .f32⟩ : BufTy).Contents (Elt F) :=
  shapeCast S50000x128 (extractStridedSlice S50000x1x128 ![0, 0, 0]
    (shapeCast S50000x4x128 B shapeCasts_S50000x512_S50000x4x128) slices_S50000x4x128_S50000x1x128_0_0_0) shapeCasts_S50000x1x128_S50000x128

theorem group0_apply (B : (⟨S50000x512, .f32⟩ : BufTy).Contents (Elt F)) (n : Fin 50000) (o : Fin 128) :
    group0 B (ix2 n o) = B (ix2 n (⟨128 * 0 + o.val, by have := o.isLt; omega⟩ : Fin 512)) :=
  Cert.EdgeConv.Layout.group_apply (N := 50000) (α := Elt F .f32) 0 (by decide) B shapeCasts_S50000x512_S50000x4x128
    slices_S50000x4x128_S50000x1x128_0_0_0 shapeCasts_S50000x1x128_S50000x128 n o

set_option maxHeartbeats 2000000 in
theorem tail_support0 (X : Valuation τ sig (Elt F)) :
    StableHlo.after (hostOps2 (F := F)) X (Proc.devRef .tc main_v27) = group0 (X (Proc.devRef .tc main_v23)) := by
  after_results_simp
  rfl

/-- Column 1 of the E × 4 array, as a vector. -/
def colVec1 (A : (⟨S1600000x4, .f32⟩ : BufTy).Contents (Elt F)) : (⟨S1600000, .f32⟩ : BufTy).Contents (Elt F) :=
  shapeCast S1600000 (extractStridedSlice S1600000x1 ![0, 1] A slices_S1600000x4_S1600000x1_0_1) shapeCasts_S1600000x1_S1600000

theorem colVec1_apply (A : (⟨S1600000x4, .f32⟩ : BufTy).Contents (Elt F)) (e : Fin 1600000) :
    colVec1 A (ix1 e) = A (ix2 e (1 : Fin 4)) :=
  Cert.EdgeConv.Layout.sliceCol_cast_apply (E := 1600000) (C := 4) (α := Elt F .f32) 1 (by decide) A
    slices_S1600000x4_S1600000x1_0_1 shapeCasts_S1600000x1_S1600000 e

set_option maxHeartbeats 2000000 in
theorem tail_weight1 (X : Valuation τ sig (Elt F)) :
    StableHlo.after (hostOps2 (F := F)) X (Proc.devRef .tc main_v47) = colVec1 (X (Proc.devRef .tc main_v20)) := by
  after_results_simp
  rfl

/-- Column group 1 of the N × 512 array, as an N × 128 array. -/
def group1 (B : (⟨S50000x512, .f32⟩ : BufTy).Contents (Elt F)) : (⟨S50000x128, .f32⟩ : BufTy).Contents (Elt F) :=
  shapeCast S50000x128 (extractStridedSlice S50000x1x128 ![0, 1, 0]
    (shapeCast S50000x4x128 B shapeCasts_S50000x512_S50000x4x128) slices_S50000x4x128_S50000x1x128_0_1_0) shapeCasts_S50000x1x128_S50000x128

theorem group1_apply (B : (⟨S50000x512, .f32⟩ : BufTy).Contents (Elt F)) (n : Fin 50000) (o : Fin 128) :
    group1 B (ix2 n o) = B (ix2 n (⟨128 * 1 + o.val, by have := o.isLt; omega⟩ : Fin 512)) :=
  Cert.EdgeConv.Layout.group_apply (N := 50000) (α := Elt F .f32) 1 (by decide) B shapeCasts_S50000x512_S50000x4x128
    slices_S50000x4x128_S50000x1x128_0_1_0 shapeCasts_S50000x1x128_S50000x128 n o

set_option maxHeartbeats 2000000 in
theorem tail_support1 (X : Valuation τ sig (Elt F)) :
    StableHlo.after (hostOps2 (F := F)) X (Proc.devRef .tc main_v45) = group1 (X (Proc.devRef .tc main_v23)) := by
  after_results_simp
  rfl

/-- Column 2 of the E × 4 array, as a vector. -/
def colVec2 (A : (⟨S1600000x4, .f32⟩ : BufTy).Contents (Elt F)) : (⟨S1600000, .f32⟩ : BufTy).Contents (Elt F) :=
  shapeCast S1600000 (extractStridedSlice S1600000x1 ![0, 2] A slices_S1600000x4_S1600000x1_0_2) shapeCasts_S1600000x1_S1600000

theorem colVec2_apply (A : (⟨S1600000x4, .f32⟩ : BufTy).Contents (Elt F)) (e : Fin 1600000) :
    colVec2 A (ix1 e) = A (ix2 e (2 : Fin 4)) :=
  Cert.EdgeConv.Layout.sliceCol_cast_apply (E := 1600000) (C := 4) (α := Elt F .f32) 2 (by decide) A
    slices_S1600000x4_S1600000x1_0_2 shapeCasts_S1600000x1_S1600000 e

set_option maxHeartbeats 2000000 in
theorem tail_weight2 (X : Valuation τ sig (Elt F)) :
    StableHlo.after (hostOps2 (F := F)) X (Proc.devRef .tc main_v65) = colVec2 (X (Proc.devRef .tc main_v20)) := by
  after_results_simp
  rfl

/-- Column group 2 of the N × 512 array, as an N × 128 array. -/
def group2 (B : (⟨S50000x512, .f32⟩ : BufTy).Contents (Elt F)) : (⟨S50000x128, .f32⟩ : BufTy).Contents (Elt F) :=
  shapeCast S50000x128 (extractStridedSlice S50000x1x128 ![0, 2, 0]
    (shapeCast S50000x4x128 B shapeCasts_S50000x512_S50000x4x128) slices_S50000x4x128_S50000x1x128_0_2_0) shapeCasts_S50000x1x128_S50000x128

theorem group2_apply (B : (⟨S50000x512, .f32⟩ : BufTy).Contents (Elt F)) (n : Fin 50000) (o : Fin 128) :
    group2 B (ix2 n o) = B (ix2 n (⟨128 * 2 + o.val, by have := o.isLt; omega⟩ : Fin 512)) :=
  Cert.EdgeConv.Layout.group_apply (N := 50000) (α := Elt F .f32) 2 (by decide) B shapeCasts_S50000x512_S50000x4x128
    slices_S50000x4x128_S50000x1x128_0_2_0 shapeCasts_S50000x1x128_S50000x128 n o

set_option maxHeartbeats 2000000 in
theorem tail_support2 (X : Valuation τ sig (Elt F)) :
    StableHlo.after (hostOps2 (F := F)) X (Proc.devRef .tc main_v63) = group2 (X (Proc.devRef .tc main_v23)) := by
  after_results_simp
  rfl

/-- Column 3 of the E × 4 array, as a vector. -/
def colVec3 (A : (⟨S1600000x4, .f32⟩ : BufTy).Contents (Elt F)) : (⟨S1600000, .f32⟩ : BufTy).Contents (Elt F) :=
  shapeCast S1600000 (extractStridedSlice S1600000x1 ![0, 3] A slices_S1600000x4_S1600000x1_0_3) shapeCasts_S1600000x1_S1600000

theorem colVec3_apply (A : (⟨S1600000x4, .f32⟩ : BufTy).Contents (Elt F)) (e : Fin 1600000) :
    colVec3 A (ix1 e) = A (ix2 e (3 : Fin 4)) :=
  Cert.EdgeConv.Layout.sliceCol_cast_apply (E := 1600000) (C := 4) (α := Elt F .f32) 3 (by decide) A
    slices_S1600000x4_S1600000x1_0_3 shapeCasts_S1600000x1_S1600000 e

set_option maxHeartbeats 2000000 in
theorem tail_weight3 (X : Valuation τ sig (Elt F)) :
    StableHlo.after (hostOps2 (F := F)) X (Proc.devRef .tc main_v83) = colVec3 (X (Proc.devRef .tc main_v20)) := by
  after_results_simp
  rfl

/-- Column group 3 of the N × 512 array, as an N × 128 array. -/
def group3 (B : (⟨S50000x512, .f32⟩ : BufTy).Contents (Elt F)) : (⟨S50000x128, .f32⟩ : BufTy).Contents (Elt F) :=
  shapeCast S50000x128 (extractStridedSlice S50000x1x128 ![0, 3, 0]
    (shapeCast S50000x4x128 B shapeCasts_S50000x512_S50000x4x128) slices_S50000x4x128_S50000x1x128_0_3_0) shapeCasts_S50000x1x128_S50000x128

theorem group3_apply (B : (⟨S50000x512, .f32⟩ : BufTy).Contents (Elt F)) (n : Fin 50000) (o : Fin 128) :
    group3 B (ix2 n o) = B (ix2 n (⟨128 * 3 + o.val, by have := o.isLt; omega⟩ : Fin 512)) :=
  Cert.EdgeConv.Layout.group_apply (N := 50000) (α := Elt F .f32) 3 (by decide) B shapeCasts_S50000x512_S50000x4x128
    slices_S50000x4x128_S50000x1x128_0_3_0 shapeCasts_S50000x1x128_S50000x128 n o

set_option maxHeartbeats 2000000 in
theorem tail_support3 (X : Valuation τ sig (Elt F)) :
    StableHlo.after (hostOps2 (F := F)) X (Proc.devRef .tc main_v81) = group3 (X (Proc.devRef .tc main_v23)) := by
  after_results_simp
  rfl

end Cert.KernelIdeal.TailReads

end
-- ==== Proof.HostBridge.lean ====
/-
  The first host stretch of the kernel program is, operation for operation, the opening of the reference: the row
  and column index vectors are the two rows of the edge-index array, and the coordinate differences are the first
  three columns of x gathered at the (wrapped) row indices minus the same gathered at the (wrapped) column indices.
-/
import proofs.«118816_j66984309948597_2_alg».proof.Proof.Gen.KernelIdeal.Frame
import proofs.«118816_j66984309948597_2_alg».proof.Proof.Gen.ReferenceIdeal.Read
import Idealize.ShloMosaic.Lib.StableHlo.Run

set_option maxRecDepth 16384

noncomputable section

namespace Cert.Proof.HostBridge

open Idealize.ShloMosaic Idealize.ShloMosaic.TcCoe Idealize.SL.Sem Idealize.ShloMosaic.StableHlo
open Cert.ReferenceIdeal.Read

variable {F : FTy → Type} [FloatOps F]

theorem first_row (X : Valuation Cert.KernelIdeal.τ Cert.KernelIdeal.sig (Elt F)) :
    StableHlo.after (Cert.KernelIdeal.Gen.hostOps0 (F := F)) X (Proc.devRef .tc Cert.KernelIdeal.main_v1)
      = val_main_v1 (F := F) (X (Proc.devRef .tc Cert.KernelIdeal.main_arg1)) := by
  after_results
  unfold val_main_v1 val_main_v0
  rfl

theorem first_col (X : Valuation Cert.KernelIdeal.τ Cert.KernelIdeal.sig (Elt F)) :
    StableHlo.after (Cert.KernelIdeal.Gen.hostOps0 (F := F)) X (Proc.devRef .tc Cert.KernelIdeal.main_v3)
      = val_main_v3 (F := F) (X (Proc.devRef .tc Cert.KernelIdeal.main_arg1)) := by
  after_results
  unfold val_main_v3 val_main_v2
  rfl

set_option maxHeartbeats 1000000 in
theorem first_diff (X : Valuation Cert.KernelIdeal.τ Cert.KernelIdeal.sig (Elt F)) :
    StableHlo.after (Cert.KernelIdeal.Gen.hostOps0 (F := F)) X (Proc.devRef .tc Cert.KernelIdeal.main_v19)
      = val_main_v19 (F := F) (X (Proc.devRef .tc Cert.KernelIdeal.main_arg0)) (X (Proc.devRef .tc Cert.KernelIdeal.main_arg1)) := by
  after_results
  unfold val_main_v19 val_main_v18 val_main_v17 val_main_v16 val_main_v15 val_main_v14 val_main_c_2 val_main_v13 val_main_v12 val_main_c_1
    val_main_v11 val_main_v10 val_main_v9 val_main_v8 val_main_v7 val_main_c_0 val_main_v6 val_main_v5 val_main_c val_main_v4
    val_main_v3 val_main_v2 val_main_v1 val_main_v0
  rfl

end Cert.Proof.HostBridge

end
-- ==== Proof.Spec.lean ====
/-
  The two dense pieces of the graph convolution, as functions of whole arrays read index by index over the
  extended reals.

  * The Gaussian edge weight: for an edge e with coordinate difference d(e, ·) in ℝ³ and kernel k with centre
    mu(·, k) and precision sg(0, k), the weight is exp( sg(0,k) · ( (-1/2) · Σ_j (d(e,j) - mu(j,k))² ) ).
  * The support: row n of x times the matrix whose (i, o) entry is given, i.e. Σ_i x(n,i) · w(i,o).

  Both programs compute exactly these two quantities and then combine them by the same gathers, products and
  scatter-additions; nothing below needs any law of the extended reals beyond reading a sum term by term.
-/
import Idealize.ShloMosaic.PureOps.Ideal
import Idealize.ShloMosaic.Lib.ValueIdx

noncomputable section

namespace Cert.EdgeConv

open Idealize.ShloMosaic Idealize.ShloMosaic.ValueIdx

/-- The float word of -1/2, kept as the pattern both programs print. -/
abbrev negHalf : EReal := Ideal.ofBits .f32 0xBF000000#32

/-- The squared distance of edge `e`'s coordinate difference from kernel `k`'s centre, as the sum of its three
    squared coordinates. -/
def sqDist (d : (⟨2, ![1600000, 3]⟩ : Shape).Idx → EReal) (mu : (⟨2, ![3, 4]⟩ : Shape).Idx → EReal)
    (e : Fin 1600000) (k : Fin 4) : EReal :=
  ∑ j : Fin 3, (d (ix2 e j) - mu (ix2 j k)) * (d (ix2 e j) - mu (ix2 j k))

/-- The Gaussian weight of edge `e` under kernel `k`. -/
def gaussW (d : (⟨2, ![1600000, 3]⟩ : Shape).Idx → EReal) (mu : (⟨2, ![3, 4]⟩ : Shape).Idx → EReal)
    (sg : (⟨2, ![1, 4]⟩ : Shape).Idx → EReal) (e : Fin 1600000) (k : Fin 4) : EReal :=
  Ideal.exp (sg (ix2 0 k) * (negHalf * sqDist d mu e k))

/-- All weights as one E × 4 array. -/
def gaussArr (d : (⟨2, ![1600000, 3]⟩ : Shape).Idx → EReal) (mu : (⟨2, ![3, 4]⟩ : Shape).Idx → EReal)
    (sg : (⟨2, ![1, 4]⟩ : Shape).Idx → EReal) : (⟨2, ![1600000, 4]⟩ : Shape).Idx → EReal :=
  fun i => gaussW d mu sg (i 0) (i 1)

/-- A plain N × 128 by 128 × C product, entry (n, c): the sum over the shared coordinate. -/
def prodAt {C : Nat} (x : (⟨2, ![50000, 128]⟩ : Shape).Idx → EReal) (w : (⟨2, ![128, C]⟩ : Shape).Idx → EReal)
    (n : Fin 50000) (c : Fin C) : EReal :=
  ∑ q : Fin 128, x (ix2 n q) * w (ix2 q c)

/-- The product as one N × C array. -/
def prodArr {C : Nat} (x : (⟨2, ![50000, 128]⟩ : Shape).Idx → EReal) (w : (⟨2, ![128, C]⟩ : Shape).Idx → EReal) :
    (⟨2, ![50000, C]⟩ : Shape).Idx → EReal :=
  fun i => prodAt x w (i 0) (i 1)

theorem gaussArr_apply (d : (⟨2, ![1600000, 3]⟩ : Shape).Idx → EReal) (mu : (⟨2, ![3, 4]⟩ : Shape).Idx → EReal)
    (sg : (⟨2, ![1, 4]⟩ : Shape).Idx → EReal) (e : Fin 1600000) (k : Fin 4) :
    gaussArr d mu sg (ix2 e k) = gaussW d mu sg e k := rfl

theorem prodArr_apply {C : Nat} (x : (⟨2, ![50000, 128]⟩ : Shape).Idx → EReal) (w : (⟨2, ![128, C]⟩ : Shape).Idx → EReal)
    (n : Fin 50000) (c : Fin C) : prodArr x w (ix2 n c) = prodAt x w n c := rfl

end Cert.EdgeConv

end
-- ==== Proof.GaussRegion.lean ====
/-
  The Gaussian edge-weight region, read as one function of the arrays it is entered with.

  The region walks the E × 3 array of coordinate differences in 200 blocks of 8000 rows. At each block it has the whole
  3 × 4 array of centres and the whole 1 × 4 array of precisions, and it stores an 8000 × 4 block whose entry (r, k) is
      exp( sg(0,k) · ( (-1/2) · Σ_j (d(r,j) - mu(j,k))² ) ),
  computed column by column: column k of the centres is laid along a row and repeated down the block, subtracted from
  the differences, squared, summed along each row, scaled and exponentiated; the four columns are then set side by side.

  First the stored block is read at an index (one lemma per operation that moves entries around, then one column,
  then the four columns together). Then each of the three blocks a point reads is located in its array, so the block a
  point writes back is that point's block of the array of all weights; the 200 blocks tile the E rows (edge e lies in
  block e / 8000), so after the region the output array is the array of all weights.
-/
import proofs.«118816_j66984309948597_2_alg».proof.Proof.Gen.KernelIdeal.Frame
import proofs.«118816_j66984309948597_2_alg».proof.Proof.Spec
import Idealize.ShloMosaic.Lib.Pipeline.Value
import Idealize.ShloMosaic.Lib.ValueIdx
import Idealize.ShloMosaic.PureOps.Ideal.Laws

noncomputable section

namespace Cert.KernelIdeal.GaussRegion

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeConv

/-- Column `k` of the centres, laid along a row and repeated down the block, read at `(r, j)`: the centre's coordinate `j`. -/
theorem centre_apply (x1 : Vec Ideal S3x4 .f32) (off : Fin 2 → Nat) (h : S3x4.Slices off S3x1) (k : Fin 4)
    (h0 : off 0 = 0) (h1 : off 1 = k.val) (hc1 : S3x1.ShapeCasts S3) (hc2 : S3.ShapeCasts S1x3) (hb : S1x3.Broadcasts S8000x3)
    (r : Fin 8000) (j : Fin 3) :
    broadcastTo S8000x3 (shapeCast S1x3 (shapeCast S3 (extractStridedSlice S3x1 off x1 h) hc1) hc2) hb (ix2 r j) = x1 (ix2 j k) := by
  refine (broadcastTo_apply _ hb (ix2 r j) (ix2 (0 : Fin 1) j) ?_).trans ?_
  · intro a
    match a with
    | ⟨0, _⟩ => rfl
    | ⟨1, _⟩ => rfl
  refine (shapeCast_apply _ hc2 (ix2 (0 : Fin 1) j) (ix1 j) ?_).trans ?_
  · rw [Shape.rowMajor_val_one, Shape.rowMajor_val_two]
    show j.val = 0 * 3 + j.val
    omega
  refine (shapeCast_apply _ hc1 (ix1 j) (ix2 j (0 : Fin 1)) ?_).trans ?_
  · rw [Shape.rowMajor_val_one, Shape.rowMajor_val_two]
    show j.val * 1 + 0 = j.val
    omega
  refine extractStridedSlice_apply off x1 h (ix2 j (0 : Fin 1)) (ix2 j k) ?_
  intro a
  match a with
  | ⟨0, _⟩ => show j.val = off 0 + j.val; omega
  | ⟨1, _⟩ => show k.val = off 1 + 0; omega

/-- Entry `(0, k)` of the precisions, cut out as a 1 × 1 piece and read as a scalar. -/
theorem prec_apply (x2 : Vec Ideal S1x4 .f32) (off : Fin 2 → Nat) (h : S1x4.Slices off S1x1) (k : Fin 4)
    (h0 : off 0 = 0) (h1 : off 1 = k.val) (hp : ∀ a, (![0, 0] : Fin 2 → Nat) a < S1x1.size a) :
    extractAt ![0, 0] (extractStridedSlice S1x1 off x2 h) hp = x2 (ix2 0 k) := by
  unfold extractAt
  refine extractStridedSlice_apply off x2 h _ (ix2 (0 : Fin 1) k) ?_
  intro a
  match a with
  | ⟨0, _⟩ => show 0 = off 0 + 0; omega
  | ⟨1, _⟩ => show k.val = off 1 + 0; omega

/-- The sum along a row of an 8000 × 3 block, read at row `r`: the three entries added. -/
theorem rowSum_apply (v : FVec Ideal S8000x3 .f32) (h : S8000x3.Reduces [1] S8000)
    (hacc : (0x00000000#32 : BitVec 32) = 0x00000000#32) (r : Fin 8000) :
    multiReduction (F := Ideal) .add [1] S8000 v 0x00000000#32 h (.inl rfl) hacc (ix1 r) = ∑ j : Fin 3, v (ix2 r j) := by
  refine (Ideal.multiReduction_add_single v 0x00000000#32 h (.inl rfl) hacc (ix1 r)).trans ?_
  show ∑ j : Fin 3, v (h.lift (ix1 r) j) = ∑ j : Fin 3, v (ix2 r j)
  refine Finset.sum_congr rfl fun j _ => congrArg v (funext fun a => ?_)
  match a with
  | ⟨0, _⟩ => exact Fin.ext rfl
  | ⟨1, _⟩ => exact Fin.ext rfl

/-- A column vector of length 8000 viewed as an 8000 × 1 block, read at `(r, 0)`. -/
theorem asColumn_apply (w : FVec Ideal S8000 .f32) (h : S8000.ShapeCasts S8000x1) (r : Fin 8000) :
    shapeCast S8000x1 w h (ix2 r (0 : Fin 1)) = w (ix1 r) := by
  refine shapeCast_apply w h (ix2 r (0 : Fin 1)) (ix1 r) ?_
  rw [Shape.rowMajor_val_one, Shape.rowMajor_val_two]
  show r.val = r.val * 1 + 0
  omega

/-- Four 8000 × 1 columns set side by side, read at `(r, k)`: column `k` at row `r`. -/
theorem sideBySide_apply (c0 c1 c2 c3 : FVec Ideal S8000x1 .f32)
    (h : Shape.Concatenates [S8000x1, S8000x1, S8000x1, S8000x1] S8000x4 1) (r : Fin 8000) (k : Fin 4) :
    concatenate S8000x4 1 [⟨S8000x1, c0⟩, ⟨S8000x1, c1⟩, ⟨S8000x1, c2⟩, ⟨S8000x1, c3⟩] h (ix2 r k)
      = (match k with | ⟨0, _⟩ => c0 | ⟨1, _⟩ => c1 | ⟨2, _⟩ => c2 | ⟨3, _⟩ => c3) (ix2 r (0 : Fin 1)) := by
  have hi : ∀ (q : Fin 4) (b : Fin S8000x1.rank), b.cast (rfl : S8000x1.rank = S8000x4.rank) ≠ (1 : Fin S8000x4.rank) →
      ((ix2 r (0 : Fin 1) : S8000x1.Idx) b).val = ((ix2 r q : S8000x4.Idx) (b.cast rfl)).val := by
    intro q b hb
    match b with
    | ⟨0, _⟩ => rfl
    | ⟨1, _⟩ => exact absurd rfl hb
  match k with
  | ⟨0, _⟩ => exact concatenate_apply_piece (t := S8000x4) 1 [⟨S8000x1, c0⟩, ⟨S8000x1, c1⟩, ⟨S8000x1, c2⟩, ⟨S8000x1, c3⟩] h _ 0 (show 0 < 4 by omega) S8000x1 c0 rfl rfl 0 rfl (ix2 r (0 : Fin 1)) (hi _) rfl
  | ⟨1, _⟩ => exact concatenate_apply_piece (t := S8000x4) 1 [⟨S8000x1, c0⟩, ⟨S8000x1, c1⟩, ⟨S8000x1, c2⟩, ⟨S8000x1, c3⟩] h _ 1 (show 1 < 4 by omega) S8000x1 c1 rfl rfl 1 rfl (ix2 r (0 : Fin 1)) (hi _) rfl
  | ⟨2, _⟩ => exact concatenate_apply_piece (t := S8000x4) 1 [⟨S8000x1, c0⟩, ⟨S8000x1, c1⟩, ⟨S8000x1, c2⟩, ⟨S8000x1, c3⟩] h _ 2 (show 2 < 4 by omega) S8000x1 c2 rfl rfl 2 rfl (ix2 r (0 : Fin 1)) (hi _) rfl
  | ⟨3, _⟩ => exact concatenate_apply_piece (t := S8000x4) 1 [⟨S8000x1, c0⟩, ⟨S8000x1, c1⟩, ⟨S8000x1, c2⟩, ⟨S8000x1, c3⟩] h _ 3 (show 3 < 4 by omega) S8000x1 c3 rfl rfl 3 rfl (ix2 r (0 : Fin 1)) (hi _) rfl

/-- The weight of row `r` of a block of coordinate differences under kernel `k`. -/
def wBlk (x0 : S8000x3.Idx → EReal) (x1 : S3x4.Idx → EReal) (x2 : S1x4.Idx → EReal) (r : Fin 8000) (k : Fin 4) : EReal :=
  Ideal.exp (x2 (ix2 0 k) * (negHalf * ∑ j : Fin 3, (x0 (ix2 r j) - x1 (ix2 j k)) * (x0 (ix2 r j) - x1 (ix2 j k))))

/-- One column as the program computes it, read at row `r`: the weight under kernel `k`. -/
theorem column_apply (x0 : FVec Ideal S8000x3 .f32) (x1 : Vec Ideal S3x4 .f32) (x2 : Vec Ideal S1x4 .f32)
    (off1 off2 : Fin 2 → Nat) (h1 : S3x4.Slices off1 S3x1) (h2 : S1x4.Slices off2 S1x1) (k : Fin 4)
    (e10 : off1 0 = 0) (e11 : off1 1 = k.val) (e20 : off2 0 = 0) (e21 : off2 1 = k.val)
    (hacc : (0x00000000#32 : BitVec 32) = 0x00000000#32) (r : Fin 8000) :
    exp (mulf (broadcast S8000x1 (extractAt ![0, 0] (extractStridedSlice S1x1 off2 x2 h2) inpos_S1x1_p0_0))
      (mulf (broadcast S8000x1 (Scalar.ofBits (F := Ideal) .f32 0xBF000000#32))
        (shapeCast S8000x1
          (multiReduction (F := Ideal) .add [1] S8000
            (mulf (subf x0 (broadcastTo S8000x3 (shapeCast S1x3 (shapeCast S3 (extractStridedSlice S3x1 off1 x1 h1) shapeCasts_S3x1_S3) shapeCasts_S3_S1x3) broadcasts_S1x3_S8000x3))
                  (subf x0 (broadcastTo S8000x3 (shapeCast S1x3 (shapeCast S3 (extractStridedSlice S3x1 off1 x1 h1) shapeCasts_S3x1_S3) shapeCasts_S3_S1x3) broadcasts_S1x3_S8000x3)))
            0x00000000#32 reduces_S8000x3_S8000 (.inl rfl) hacc)
          shapeCasts_S8000_S8000x1))) (ix2 r (0 : Fin 1))
      = wBlk x0 x1 x2 r k := by
  unfold wBlk
  show Ideal.exp (_ * (_ * _)) = Ideal.exp (_ * (_ * _))
  congr 1
  congr 1
  · exact prec_apply x2 off2 h2 k e20 e21 _
  congr 1
  refine (asColumn_apply _ _ r).trans ?_
  refine (rowSum_apply _ _ hacc r).trans ?_
  refine Finset.sum_congr rfl fun j _ => ?_
  rw [mulf_apply, subf_apply, centre_apply x1 off1 h1 k e10 e11 _ _ _ r j]

/-- What the program stores in the output block, read at `(r, k)`: the weight of row `r` under kernel `k`. -/
theorem stored_apply (x0 : Vec Ideal S8000x3 .f32) (x1 : Vec Ideal S3x4 .f32) (x2 : Vec Ideal S1x4 .f32) (r : Fin 8000) (k : Fin 4) :
    k0_pay1 (F := Ideal) (k0_pay2 x0) x1 x2 (k0_pay3 x0 x1 x2) (k0_pay4 x0 x1 x2) (k0_pay5 x0 x1) (k0_pay6 x2) (ix2 r k)
      = wBlk x0 x1 x2 r k := by
  have e2 : k0_pay2 (F := Ideal) x0 = x0 := shapeCast_self x0 _
  unfold k0_pay1
  dsimp only
  refine (sideBySide_apply _ _ _ _ _ r k).trans ?_
  match k with
  | ⟨0, _⟩ =>
    show k0_pay3 (F := Ideal) x0 x1 x2 (ix2 r (0 : Fin 1)) = _
    unfold k0_pay3
    dsimp only
    rw [e2]
    exact column_apply x0 x1 x2 _ _ _ _ ⟨0, by omega⟩ rfl rfl rfl rfl _ r
  | ⟨1, _⟩ =>
    show k0_pay4 (F := Ideal) x0 x1 x2 (ix2 r (0 : Fin 1)) = _
    unfold k0_pay4
    dsimp only
    rw [e2]
    exact column_apply x0 x1 x2 _ _ _ _ ⟨1, by omega⟩ rfl rfl rfl rfl _ r
  | ⟨2, _⟩ =>
    show exp (mulf (k0_pay6 (F := Ideal) x2) (k0_pay5 (F := Ideal) x0 x1)) (ix2 r (0 : Fin 1)) = _
    unfold k0_pay5 k0_pay6
    dsimp only
    rw [e2]
    exact column_apply x0 x1 x2 _ _ _ _ ⟨2, by omega⟩ rfl rfl rfl rfl _ r
  | ⟨3, _⟩ =>
    dsimp only
    rw [e2]
    exact column_apply x0 x1 x2 _ _ _ _ ⟨3, by omega⟩ rfl rfl rfl rfl _ r

/-- The stored block as a function of any index of the block. -/
theorem stored_at (x0 : Vec Ideal S8000x3 .f32) (x1 : Vec Ideal S3x4 .f32) (x2 : Vec Ideal S1x4 .f32) (p : S8000x4.Idx) :
    k0_pay1 (F := Ideal) (k0_pay2 x0) x1 x2 (k0_pay3 x0 x1 x2) (k0_pay4 x0 x1 x2) (k0_pay5 x0 x1) (k0_pay6 x2) p
      = wBlk x0 x1 x2 (p 0) (p 1) := by
  obtain ⟨r, k, rfl⟩ : ∃ (r : Fin 8000) (k : Fin 4), p = ix2 r k := ⟨p 0, p 1, eq_ix2 p⟩
  exact stored_apply x0 x1 x2 r k

/-- A block's weight is the whole array's weight at the edge the block's row stands for, once the three blocks are
    read where they sit in their arrays. -/
theorem wBlk_eq_gaussArr (x0 : S8000x3.Idx → EReal) (x1 : S3x4.Idx → EReal) (x2 : S1x4.Idx → EReal)
    (d : S1600000x3.Idx → EReal) (mu : S3x4.Idx → EReal) (sg : S1x4.Idx → EReal)
    (r : Fin 8000) (k : Fin 4) (i : S1600000x4.Idx) (hk : (i 1).val = k.val)
    (h0 : ∀ j : Fin 3, x0 (ix2 r j) = d (ix2 (i 0) j)) (h1 : ∀ j : Fin 3, x1 (ix2 j k) = mu (ix2 j k))
    (h2 : x2 (ix2 0 k) = sg (ix2 0 k)) :
    wBlk x0 x1 x2 r k = gaussArr d mu sg i := by
  obtain ⟨e, k', rfl⟩ : ∃ (e : Fin 1600000) (k' : Fin 4), i = ix2 e k' := ⟨i 0, i 1, eq_ix2 i⟩
  obtain rfl : k' = k := Fin.ext hk
  show _ = gaussW d mu sg e k'
  unfold wBlk gaussW sqDist
  rw [h2]
  congr 2
  refine congrArg _ (Finset.sum_congr rfl fun j _ => ?_)
  rw [h0 j, h1 j]

theorem zero_offsets : (![0, 0] : Fin 2 → Nat) = fun _ => 0 := funext fun a => by fin_cases a <;> rfl

/-- The block indices over the grid: the differences' block and the output's block are block `t` of their arrays, the
    centres and the precisions are read whole at every point. -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- The differences' block at point `t` is rows `8000 t … 8000 t + 7999` of the array of differences. -/
theorem diffBlk_apply (c : Dev nD) (t : Fin cfg0.N) (x : S8000x3.Idx) (i : S1600000x3.Idx)
    (h0 : (i 0).val = t.val * 8000 + (x 0).val) (h1 : (i 1).val = (x 1).val) :
    (iblk0 (F := Ideal) V c 0 t : Vec Ideal S8000x3 .f32) x = (V c main_v19 : S1600000x3.Idx → EReal) i := by
  obtain ⟨e0, e1, e2, e3, e4, e5, e6, e7⟩ := block_indices t
  unfold iblk0
  rw [View.read_apply]
  show V c main_v19 _ = V c main_v19 _
  congr 1
  funext a
  apply Fin.ext
  match a with
  | ⟨0, _⟩ => show win0_0.index t (0 : Fin 2) * 8000 + 1 * (x 0).val = (i 0).val; rw [e2, h0]; omega
  | ⟨1, _⟩ => show win0_0.index t (1 : Fin 2) * 3 + 1 * (x 1).val = (i 1).val; rw [e3, h1]; omega

/-- The centres' block at every point is the whole array of centres. -/
theorem centreBlk_apply (c : Dev nD) (t : Fin cfg0.N) (x : S3x4.Idx) :
    (iblk0 (F := Ideal) V c 1 t : Vec Ideal S3x4 .f32) x = (V c main_arg4 : S3x4.Idx → EReal) x := by
  obtain ⟨e0, e1, e2, e3, e4, e5, e6, e7⟩ := block_indices t
  unfold iblk0
  rw [View.read_apply]
  show V c main_arg4 _ = V c main_arg4 _
  congr 1
  funext a
  apply Fin.ext
  match a with
  | ⟨0, _⟩ => show win0_1.index t (0 : Fin 2) * 3 + 1 * (x 0).val = (x 0).val; rw [e4]; omega
  | ⟨1, _⟩ => show win0_1.index t (1 : Fin 2) * 4 + 1 * (x 1).val = (x 1).val; rw [e5]; omega

/-- The precisions' block at every point is the whole array of precisions. -/
theorem precBlk_apply (c : Dev nD) (t : Fin cfg0.N) (x : S1x4.Idx) :
    (iblk0 (F := Ideal) V c 2 t : Vec Ideal S1x4 .f32) x = (V c main_arg5 : S1x4.Idx → EReal) x := by
  obtain ⟨e0, e1, e2, e3, e4, e5, e6, e7⟩ := block_indices t
  unfold iblk0
  rw [View.read_apply]
  show V c main_arg5 _ = V c main_arg5 _
  congr 1
  funext a
  apply Fin.ext
  match a with
  | ⟨0, _⟩ => show win0_2.index t (0 : Fin 2) * 1 + 1 * (x 0).val = (x 0).val; rw [e6]; omega
  | ⟨1, _⟩ => show win0_2.index t (1 : Fin 2) * 4 + 1 * (x 1).val = (x 1).val; rw [e7]; omega

/-- What point `t` writes back is block `t` of the array of all weights. -/
theorem written_back_eq (c : Dev nD) (t : Fin cfg0.N) :
    (dat0 (F := Ideal) V c).flushed 3 t
      = ((cfg0.win 3).blk t).view.read (Elt Ideal) (gaussArr (V c main_v19) (V c main_arg4) (V c main_arg5)) := by
  show (cfg0.win 3).cut (grid0.coords t) ((dat0 V c).after 3 t) = _
  rw [after0_3]
  unfold out0_3
  rw [View.canon_unit_zero zero_offsets]
  simp only [View.ld_unit_zero (S := S8000x3) zero_offsets, View.ld_unit_zero (S := S3x4) zero_offsets, View.ld_unit_zero (S := S1x4) zero_offsets]
  obtain ⟨e0, e1, e2, e3, e4, e5, e6, e7⟩ := block_indices t
  funext y
  show k0_pay1 (F := Ideal) _ _ _ _ _ _ _ ((cfg0.win 3).xinj (grid0.coords t) y) = gaussArr _ _ _ (((cfg0.win 3).blk t).view.emb y)
  refine (stored_at _ _ _ _).trans ?_
  refine wBlk_eq_gaussArr _ _ _ _ _ _ _ _ _ ?_ (fun j => ?_) (fun j => ?_) ?_
  · show win0_3.index t (1 : Fin 2) * 4 + 1 * (y 1).val = (y 1).val
    rw [e1]; omega
  · refine diffBlk_apply V c t _ _ ?_ rfl
    show win0_3.index t (0 : Fin 2) * 8000 + 1 * (y 0).val = t.val * 8000 + (y 0).val
    rw [e0]; omega
  · exact centreBlk_apply V c t _
  · exact precBlk_apply V c t _

/-- An index of the array of weights is in point `t`'s block iff each coordinate is in the block's range on its axis. -/
theorem mem_block_iff (t : Fin cfg0.N) (i : S1600000x4.Idx) :
    i ∈ ((cfg0.win 3).blk t).view.set ↔ ∀ a : Fin 2, win0_3.index t a * S8000x4.size a ≤ (i a).val ∧ (i a).val < win0_3.index t a * S8000x4.size a + S8000x4.size a := by
  show i ∈ ((View.whole main_v20).slice (win0_3.rect t)).set ↔ _
  rw [View.set_slice_whole, Rect.mem_set_unit]
  exact Iff.rfl

/-- Every edge's row lies in the block of the point its number divided by 8000 names. -/
theorem every_edge_covered (i : S1600000x4.Idx) :
    ∃ t : Fin cfg0.N, (cfg0.win 3).flush t = true ∧ i ∈ ((cfg0.win 3).blk t).view.set := by
  have hi0 : (i 0).val < 1600000 := (i 0).isLt
  have hi1 : (i 1).val < 4 := (i 1).isLt
  have hN : cfg0.N = 200 := N_0
  obtain ⟨t, ht⟩ : ∃ t : Fin cfg0.N, t.val = (i 0).val / 8000 := ⟨⟨(i 0).val / 8000, by rw [hN]; omega⟩, rfl⟩
  obtain ⟨e0, e1, -⟩ := block_indices t
  refine ⟨t, flush0_3 t, ?_⟩
  rw [mem_block_iff]
  intro a
  match a with
  | ⟨0, _⟩ =>
    show win0_3.index t (0 : Fin 2) * 8000 ≤ (i 0).val ∧ (i 0).val < win0_3.index t (0 : Fin 2) * 8000 + 8000
    rw [e0, ht]; omega
  | ⟨1, _⟩ =>
    show win0_3.index t (1 : Fin 2) * 4 ≤ (i 1).val ∧ (i 1).val < win0_3.index t (1 : Fin 2) * 4 + 4
    rw [e1]; omega

/-- After the region the array of weights holds, at every edge and kernel, the Gaussian weight of the arrays the
    region was entered with. -/
theorem gauss_final (c : Dev nD) :
    (dat0 (F := Ideal) V c).arrAt 3 cfg0.N = Cert.EdgeConv.gaussArr (V c main_v19) (V c main_arg4) (V c main_arg5) :=
  (dat0 (F := Ideal) V c).arrAt_eq_of_cover 3 _ (fun t _ => written_back_eq V c t) every_edge_covered

end Cert.KernelIdeal.GaussRegion

end
-- ==== Proof.MatmulRegion.lean ====
/-
  The dense product of the graph convolution, as the second region of the kernel program computes it.

  The region walks a grid of 25 points. At point t it reads rows 2000·t … 2000·t + 1999 of the 50000 × 128 array and the
  whole 128 × 512 matrix, multiplies them, and writes the 2000 × 512 result back as rows 2000·t … 2000·t + 1999 of the
  50000 × 512 output. Over the extended reals the two narrowings to bf16 are the identity and the accumulator starts at
  zero, so entry (r, j) of one point's result is Σ_q x0(r, q) · x1(q, j). The 25 row blocks tile the output, hence the
  output array ends as the product of the two input arrays, entry (n, j) = Σ_q A(n, q) · B(q, j).
-/
import proofs.«118816_j66984309948597_2_alg».proof.Proof.Gen.KernelIdeal.Frame
import proofs.«118816_j66984309948597_2_alg».proof.Proof.Spec
import Idealize.ShloMosaic.Lib.Pipeline.Value
import Idealize.ShloMosaic.Lib.ValueIdx
import Idealize.ShloMosaic.PureOps.Ideal.Laws

noncomputable section

namespace Cert.KernelIdeal.MatmulRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index -/

/-- The left operand's index at output index `i` and contraction index `q`: row `i 0` … -/
theorem lhs_row (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- … and column the contracted coordinate. -/
theorem lhs_col (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- The right operand's index: row the contracted coordinate … -/
theorem rhs_row (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- … and column `i 1`. -/
theorem rhs_col (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Entry (r, j) of what the body stores: the sum over the shared coordinate q of x0(r, q) · x1(q, j). The two
    narrowings to bf16 are the identity on extended reals, the cast of a shape to itself is the identity, and the
    accumulator is the zero splat. -/
theorem pay_apply (x0 : Vec Ideal S2000x128 .f32) (x1 : Vec Ideal S128x512 .f32) (r : Fin 2000) (j : Fin 512) :
    k1_pay1 (F := Ideal) x0 x1 (ix2 r j) = ∑ q : Fin 128, x0 (ix2 r q) * x1 (ix2 q j) := by
  unfold k1_pay1
  simp only [shapeCast_self]
  refine (Ideal.matmul_constant_zero_apply dot_S2000x128_S128x512_S2000x512_1_0_0_1_n_n none _ _ (ix2 r j)).trans ?_
  rw [← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 r j) ((contrEquiv1 dot_S2000x128_S128x512_S2000x512_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x512_S2000x512_1_0_0_1_n_n.rhsIdx (ix2 r j) ((contrEquiv1 dot_S2000x128_S128x512_S2000x512_1_0_0_1_n_n 128 rfl rfl).symm k) = ix2 k j := funext fun a => Fin.ext (by
    match a with
    | ⟨0, _⟩ => exact (rhs_row _ _).trans hk
    | ⟨1, _⟩ => exact rhs_col _ _)
  rw [el, er]
  rfl

/-! ## From the body's blocks to the array -/

theorem hz : (![0, 0] : Fin 2 → Nat) = fun _ => 0 := funext fun a => by fin_cases a <;> rfl

/-- The three index maps over the grid: at point t the left operand's block and the output's block are both the
    t-th block of rows and start at column 0; the right operand's block is the whole matrix. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- If row r of the block x0 is row n of the array A, and x1 is B, then entry (r, j) of the body's product is
    entry (n, j) of the product of A and B. -/
theorem pay_block (A : S50000x128.Idx → EReal) (B : S128x512.Idx → EReal)
    (x0 : Vec Ideal S2000x128 .f32) (x1 : Vec Ideal S128x512 .f32) (n : Fin 50000) (r : Fin 2000) (j : Fin 512)
    (h0 : ∀ q : Fin 128, x0 (ix2 r q) = A (ix2 n q))
    (h1 : ∀ q : Fin 128, x1 (ix2 q j) = B (ix2 q j)) :
    k1_pay1 (F := Ideal) x0 x1 (ix2 r j) = Cert.EdgeConv.prodAt A B n j := by
  rw [pay_apply]
  unfold Cert.EdgeConv.prodAt
  exact Finset.sum_congr rfl fun q _ => by rw [h0 q, h1 q]

/-- What point t writes back is block t of the product array: rows 2000·t … 2000·t + 1999, every column. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.EdgeConv.prodArr (C := 512) (V c main_arg0) (V c main_v22)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x512) hz]
  obtain ⟨e0, e1, e2, e3, e4, e5⟩ := idx_facts t
  have ht : t.val < 25 := lt_of_lt_of_eq t.isLt N_1
  refine funext fun (y : S2000x512.Idx) => ?_
  obtain ⟨r, j, rfl⟩ : ∃ (r : Fin 2000) (j : Fin 512), y = ix2 r j := ⟨y 0, y 1, eq_ix2 y⟩
  have hr : r.val < 2000 := r.isLt
  have hn : t.val * 2000 + r.val < 50000 := by omega
  have hemb : ((cfg1.win 2).blk t).view.emb (ix2 r j) = (ix2 (⟨t.val * 2000 + r.val, hn⟩ : Fin 50000) j : S50000x512.Idx) := by
    funext a; apply Fin.ext
    match a with
    | ⟨0, _⟩ => show win1_2.index t (0 : Fin 2) * 2000 + 1 * r.val = t.val * 2000 + r.val; rw [e4]; omega
    | ⟨1, _⟩ => show win1_2.index t (1 : Fin 2) * 512 + 1 * j.val = j.val; rw [e5]; omega
  show k1_pay1 (iblk1 V c 0 t) (iblk1 V c 1 t) (ix2 r j)
      = Cert.EdgeConv.prodArr (C := 512) (V c main_arg0) (V c main_v22) (((cfg1.win 2).blk t).view.emb (ix2 r j))
  rw [hemb, Cert.EdgeConv.prodArr_apply]
  refine pay_block (V c main_arg0) (V c main_v22) (iblk1 V c 0 t) (iblk1 V c 1 t) ⟨t.val * 2000 + r.val, hn⟩ r j (fun q => ?_) (fun q => ?_)
  · unfold iblk1
    rw [View.read_apply]
    show V c main_arg0 (((cfg1.win 0).blk t).view.emb (ix2 r q)) = V c main_arg0 (ix2 (⟨t.val * 2000 + r.val, hn⟩ : Fin 50000) q)
    refine congrArg _ (funext fun a => Fin.ext ?_)
    match a with
    | ⟨0, _⟩ => show win1_0.index t (0 : Fin 2) * 2000 + 1 * r.val = t.val * 2000 + r.val; rw [e0]; omega
    | ⟨1, _⟩ => show win1_0.index t (1 : Fin 2) * 128 + 1 * q.val = q.val; rw [e1]; omega
  · unfold iblk1
    rw [View.read_apply]
    show V c main_v22 (((cfg1.win 1).blk t).view.emb (ix2 q j)) = V c main_v22 (ix2 q j)
    refine congrArg _ (funext fun a => Fin.ext ?_)
    match a with
    | ⟨0, _⟩ => show win1_1.index t (0 : Fin 2) * 128 + 1 * q.val = q.val; rw [e2]; omega
    | ⟨1, _⟩ => show win1_1.index t (1 : Fin 2) * 512 + 1 * j.val = j.val; rw [e3]; omega

/-- An index of the array is in point t's block iff each coordinate is in the block's range on its axis. -/
theorem mem_blk (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v23).slice (win1_2.rect t)).set ↔ _
  rw [View.set_slice_whole, Rect.mem_set_unit]
  exact Iff.rfl

/-- Every entry (n, j) of the array lies in the block of point n / 2000, and every point writes its block back. -/
theorem cover (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 512 ≤ (i 1).val ∧ (i 1).val < win1_2.index t (1 : Fin 2) * 512 + 512; rw [e5]; omega

/-- The output array after the region is the product of the two input arrays as the region found them. -/
theorem matmul_final (V : (c : Dev nD) → (b : Ref sig .tc) → Buf (Elt Ideal) ((c : Thread nD τ).loc b)) (c : Dev nD) :
    (dat1 (F := Ideal) V c).arrAt 2 cfg1.N = Cert.EdgeConv.prodArr (C := 512) (V c main_arg0) (V c main_v22) :=
  (dat1 V c).arrAt_eq_of_cover 2 _ (fun t _ => flushed_eq V c t) cover

end Cert.KernelIdeal.MatmulRegion

end
-- ==== Proof.RefValues.lean ====
/-
  The reference program's Gaussian edge weights, read entry by entry over the extended reals.

  For each of the four kernels k the reference slices column k of the centres and of the precisions, broadcasts them
  along the edges, and computes exp( sg(0,k) · ( (-1/2) · Σ_j (d(e,j) - mu(j,k))² ) ), the sum over the three
  coordinates starting from zero. Read at edge e this is the Gaussian weight of the specification, with the
  coordinate differences d left as the reference's own earlier stage.
-/
import proofs.«118816_j66984309948597_2_alg».proof.Proof.Gen.ReferenceIdeal.Read
import proofs.«118816_j66984309948597_2_alg».proof.Proof.Spec
import Idealize.ShloMosaic.PureOps.Ideal.Laws

noncomputable section

namespace Cert.ReferenceIdeal.RefValues

open Cert.ReferenceIdeal Cert.ReferenceIdeal.Gen Cert.ReferenceIdeal.Read Idealize.ShloMosaic Idealize.ShloMosaic.ValueIdx

/-- In a shape with a single element every index sits at row-major position 0. -/
theorem rowMajor_val_of_numel_one {s : Shape} (h : s.numel = 1) (i : s.Idx) : (s.rowMajor i).val = 0 :=
  Nat.lt_one_iff.mp (lt_of_lt_of_eq (s.rowMajor i).isLt h)

/-- The precision of kernel 0, broadcast along the edges: every entry is sg(0, 0). The cast of a 1 × 1 array to a
    scalar keeps its one entry, both having a single row-major position. -/
theorem ref_prec0 (x5 : (⟨S1x4, .f32⟩ : BufTy).Contents (Elt Ideal)) (i : S1600000.Idx) :
    val_main_v35 (F := Ideal) x5 i = x5 (ix2 (0 : Fin 1) (0 : Fin 4)) := by
  rw [val_main_v35_apply]
  unfold val_main_v25
  refine (shapeCast_apply (val_main_v24 (F := Ideal) x5) shapeCasts_S1x1_S_ (idx_main_v35 i) (ix2 (0 : Fin 1) (0 : Fin 1)) ?_).trans ?_
  · exact (rowMajor_val_of_numel_one (by decide) _).trans (rowMajor_val_of_numel_one (by decide) _).symm
  · rw [val_main_v24_apply]
    exact congrArg x5 (funext fun a => Fin.ext (by match a with | ⟨0, _⟩ => rfl | ⟨1, _⟩ => rfl))

/-- The centre of kernel 0, broadcast along the edges: entry (e, j) is mu(j, 0). -/
theorem ref_centre0 (x4 : (⟨S3x4, .f32⟩ : BufTy).Contents (Elt Ideal)) (e : Fin 1600000) (j : Fin 3) :
    val_main_v29 (F := Ideal) x4 (ix2 e j) = x4 (ix2 j (0 : Fin 4)) := by
  rw [val_main_v29_apply, val_main_v28_apply, val_main_v27_apply, val_main_v26_apply]
  refine congrArg x4 (funext fun a => Fin.ext ?_)
  match a with
  | ⟨0, _⟩ => exact Nat.div_one _
  | ⟨1, _⟩ => rfl

/-- The reference's weight of edge e under kernel 0: exp( sg(0,0) · ( (-1/2) · Σ_j (d(e,j) - mu(j,0))² ) ), the sum
    starting from zero. -/
theorem ref_weight0 (x0 : (⟨S50000x128, .f32⟩ : BufTy).Contents (Elt Ideal)) (x1 : (⟨S2x1600000, .i32⟩ : BufTy).Contents (Elt Ideal)) (x4 : (⟨S3x4, .f32⟩ : BufTy).Contents (Elt Ideal)) (x5 : (⟨S1x4, .f32⟩ : BufTy).Contents (Elt Ideal)) (e : Fin 1600000) :
    val_main_v37 (F := Ideal) x0 x1 x4 x5 (ix1 e) = Cert.EdgeConv.gaussW (val_main_v19 (F := Ideal) x0 x1) x4 x5 e 0 := by
  rw [val_main_v37_apply, val_main_v36_apply, ref_prec0, val_main_v34_apply, val_main_v33_apply, val_main_cst_4_apply,
    val_main_v32_apply, val_main_cst_3_apply]
  unfold Cert.EdgeConv.gaussW Cert.EdgeConv.sqDist
  simp only [Ideal.hostUnary_exp_def, Ideal.mulf_def, Ideal.ofBits_def, Ideal.ofBits_zero_f32, zero_add]
  refine congrArg (fun s => Ideal.exp (x5 (ix2 (0 : Fin 1) (0 : Fin 4)) * (Cert.EdgeConv.negHalf * s))) (Finset.sum_congr rfl fun j _ => ?_)
  have hi : idx_main_v32 (ix1 e) j = ix2 e j := funext fun a => Fin.ext (by match a with | ⟨0, _⟩ => rfl | ⟨1, _⟩ => rfl)
  rw [hi, val_main_v31_apply, val_main_v30_apply, ref_centre0]
  simp only [Ideal.mulf_def, Ideal.subf_def]

/-- The precision of kernel 1, broadcast along the edges: every entry is sg(0, 1). The cast of a 1 × 1 array to a
    scalar keeps its one entry, both having a single row-major position. -/
theorem ref_prec1 (x5 : (⟨S1x4, .f32⟩ : BufTy).Contents (Elt Ideal)) (i : S1600000.Idx) :
    val_main_v66 (F := Ideal) x5 i = x5 (ix2 (0 : Fin 1) (1 : Fin 4)) := by
  rw [val_main_v66_apply]
  unfold val_main_v56
  refine (shapeCast_apply (val_main_v55 (F := Ideal) x5) shapeCasts_S1x1_S_ (idx_main_v66 i) (ix2 (0 : Fin 1) (0 : Fin 1)) ?_).trans ?_
  · exact (rowMajor_val_of_numel_one (by decide) _).trans (rowMajor_val_of_numel_one (by decide) _).symm
  · rw [val_main_v55_apply]
    exact congrArg x5 (funext fun a => Fin.ext (by match a with | ⟨0, _⟩ => rfl | ⟨1, _⟩ => rfl))

/-- The centre of kernel 1, broadcast along the edges: entry (e, j) is mu(j, 1). -/
theorem ref_centre1 (x4 : (⟨S3x4, .f32⟩ : BufTy).Contents (Elt Ideal)) (e : Fin 1600000) (j : Fin 3) :
    val_main_v60 (F := Ideal) x4 (ix2 e j) = x4 (ix2 j (1 : Fin 4)) := by
  rw [val_main_v60_apply, val_main_v59_apply, val_main_v58_apply, val_main_v57_apply]
  refine congrArg x4 (funext fun a => Fin.ext ?_)
  match a with
  | ⟨0, _⟩ => exact Nat.div_one _
  | ⟨1, _⟩ => rfl

/-- The reference's weight of edge e under kernel 1: exp( sg(0,1) · ( (-1/2) · Σ_j (d(e,j) - mu(j,1))² ) ), the sum
    starting from zero. -/
theorem ref_weight1 (x0 : (⟨S50000x128, .f32⟩ : BufTy).Contents (Elt Ideal)) (x1 : (⟨S2x1600000, .i32⟩ : BufTy).Contents (Elt Ideal)) (x4 : (⟨S3x4, .f32⟩ : BufTy).Contents (Elt Ideal)) (x5 : (⟨S1x4, .f32⟩ : BufTy).Contents (Elt Ideal)) (e : Fin 1600000) :
    val_main_v68 (F := Ideal) x0 x1 x4 x5 (ix1 e) = Cert.EdgeConv.gaussW (val_main_v19 (F := Ideal) x0 x1) x4 x5 e 1 := by
  rw [val_main_v68_apply, val_main_v67_apply, ref_prec1, val_main_v65_apply, val_main_v64_apply, val_main_cst_9_apply,
    val_main_v63_apply, val_main_cst_8_apply]
  unfold Cert.EdgeConv.gaussW Cert.EdgeConv.sqDist
  simp only [Ideal.hostUnary_exp_def, Ideal.mulf_def, Ideal.ofBits_def, Ideal.ofBits_zero_f32, zero_add]
  refine congrArg (fun s => Ideal.exp (x5 (ix2 (0 : Fin 1) (1 : Fin 4)) * (Cert.EdgeConv.negHalf * s))) (Finset.sum_congr rfl fun j _ => ?_)
  have hi : idx_main_v63 (ix1 e) j = ix2 e j := funext fun a => Fin.ext (by match a with | ⟨0, _⟩ => rfl | ⟨1, _⟩ => rfl)
  rw [hi, val_main_v62_apply, val_main_v61_apply, ref_centre1]
  simp only [Ideal.mulf_def, Ideal.subf_def]

/-- The precision of kernel 2, broadcast along the edges: every entry is sg(0, 2). The cast of a 1 × 1 array to a
    scalar keeps its one entry, both having a single row-major position. -/
theorem ref_prec2 (x5 : (⟨S1x4, .f32⟩ : BufTy).Contents (Elt Ideal)) (i : S1600000.Idx) :
    val_main_v97 (F := Ideal) x5 i = x5 (ix2 (0 : Fin 1) (2 : Fin 4)) := by
  rw [val_main_v97_apply]
  unfold val_main_v87
  refine (shapeCast_apply (val_main_v86 (F := Ideal) x5) shapeCasts_S1x1_S_ (idx_main_v97 i) (ix2 (0 : Fin 1) (0 : Fin 1)) ?_).trans ?_
  · exact (rowMajor_val_of_numel_one (by decide) _).trans (rowMajor_val_of_numel_one (by decide) _).symm
  · rw [val_main_v86_apply]
    exact congrArg x5 (funext fun a => Fin.ext (by match a with | ⟨0, _⟩ => rfl | ⟨1, _⟩ => rfl))

/-- The centre of kernel 2, broadcast along the edges: entry (e, j) is mu(j, 2). -/
theorem ref_centre2 (x4 : (⟨S3x4, .f32⟩ : BufTy).Contents (Elt Ideal)) (e : Fin 1600000) (j : Fin 3) :
    val_main_v91 (F := Ideal) x4 (ix2 e j) = x4 (ix2 j (2 : Fin 4)) := by
  rw [val_main_v91_apply, val_main_v90_apply, val_main_v89_apply, val_main_v88_apply]
  refine congrArg x4 (funext fun a => Fin.ext ?_)
  match a with
  | ⟨0, _⟩ => exact Nat.div_one _
  | ⟨1, _⟩ => rfl

/-- The reference's weight of edge e under kernel 2: exp( sg(0,2) · ( (-1/2) · Σ_j (d(e,j) - mu(j,2))² ) ), the sum
    starting from zero. -/
theorem ref_weight2 (x0 : (⟨S50000x128, .f32⟩ : BufTy).Contents (Elt Ideal)) (x1 : (⟨S2x1600000, .i32⟩ : BufTy).Contents (Elt Ideal)) (x4 : (⟨S3x4, .f32⟩ : BufTy).Contents (Elt Ideal)) (x5 : (⟨S1x4, .f32⟩ : BufTy).Contents (Elt Ideal)) (e : Fin 1600000) :
    val_main_v99 (F := Ideal) x0 x1 x4 x5 (ix1 e) = Cert.EdgeConv.gaussW (val_main_v19 (F := Ideal) x0 x1) x4 x5 e 2 := by
  rw [val_main_v99_apply, val_main_v98_apply, ref_prec2, val_main_v96_apply, val_main_v95_apply, val_main_cst_14_apply,
    val_main_v94_apply, val_main_cst_13_apply]
  unfold Cert.EdgeConv.gaussW Cert.EdgeConv.sqDist
  simp only [Ideal.hostUnary_exp_def, Ideal.mulf_def, Ideal.ofBits_def, Ideal.ofBits_zero_f32, zero_add]
  refine congrArg (fun s => Ideal.exp (x5 (ix2 (0 : Fin 1) (2 : Fin 4)) * (Cert.EdgeConv.negHalf * s))) (Finset.sum_congr rfl fun j _ => ?_)
  have hi : idx_main_v94 (ix1 e) j = ix2 e j := funext fun a => Fin.ext (by match a with | ⟨0, _⟩ => rfl | ⟨1, _⟩ => rfl)
  rw [hi, val_main_v93_apply, val_main_v92_apply, ref_centre2]
  simp only [Ideal.mulf_def, Ideal.subf_def]

/-- The precision of kernel 3, broadcast along the edges: every entry is sg(0, 3). The cast of a 1 × 1 array to a
    scalar keeps its one entry, both having a single row-major position. -/
theorem ref_prec3 (x5 : (⟨S1x4, .f32⟩ : BufTy).Contents (Elt Ideal)) (i : S1600000.Idx) :
    val_main_v128 (F := Ideal) x5 i = x5 (ix2 (0 : Fin 1) (3 : Fin 4)) := by
  rw [val_main_v128_apply]
  unfold val_main_v118
  refine (shapeCast_apply (val_main_v117 (F := Ideal) x5) shapeCasts_S1x1_S_ (idx_main_v128 i) (ix2 (0 : Fin 1) (0 : Fin 1)) ?_).trans ?_
  · exact (rowMajor_val_of_numel_one (by decide) _).trans (rowMajor_val_of_numel_one (by decide) _).symm
  · rw [val_main_v117_apply]
    exact congrArg x5 (funext fun a => Fin.ext (by match a with | ⟨0, _⟩ => rfl | ⟨1, _⟩ => rfl))

/-- The centre of kernel 3, broadcast along the edges: entry (e, j) is mu(j, 3). -/
theorem ref_centre3 (x4 : (⟨S3x4, .f32⟩ : BufTy).Contents (Elt Ideal)) (e : Fin 1600000) (j : Fin 3) :
    val_main_v122 (F := Ideal) x4 (ix2 e j) = x4 (ix2 j (3 : Fin 4)) := by
  rw [val_main_v122_apply, val_main_v121_apply, val_main_v120_apply, val_main_v119_apply]
  refine congrArg x4 (funext fun a => Fin.ext ?_)
  match a with
  | ⟨0, _⟩ => exact Nat.div_one _
  | ⟨1, _⟩ => rfl

/-- The reference's weight of edge e under kernel 3: exp( sg(0,3) · ( (-1/2) · Σ_j (d(e,j) - mu(j,3))² ) ), the sum
    starting from zero. -/
theorem ref_weight3 (x0 : (⟨S50000x128, .f32⟩ : BufTy).Contents (Elt Ideal)) (x1 : (⟨S2x1600000, .i32⟩ : BufTy).Contents (Elt Ideal)) (x4 : (⟨S3x4, .f32⟩ : BufTy).Contents (Elt Ideal)) (x5 : (⟨S1x4, .f32⟩ : BufTy).Contents (Elt Ideal)) (e : Fin 1600000) :
    val_main_v130 (F := Ideal) x0 x1 x4 x5 (ix1 e) = Cert.EdgeConv.gaussW (val_main_v19 (F := Ideal) x0 x1) x4 x5 e 3 := by
  rw [val_main_v130_apply, val_main_v129_apply, ref_prec3, val_main_v127_apply, val_main_v126_apply, val_main_cst_19_apply,
    val_main_v125_apply, val_main_cst_18_apply]
  unfold Cert.EdgeConv.gaussW Cert.EdgeConv.sqDist
  simp only [Ideal.hostUnary_exp_def, Ideal.mulf_def, Ideal.ofBits_def, Ideal.ofBits_zero_f32, zero_add]
  refine congrArg (fun s => Ideal.exp (x5 (ix2 (0 : Fin 1) (3 : Fin 4)) * (Cert.EdgeConv.negHalf * s))) (Finset.sum_congr rfl fun j _ => ?_)
  have hi : idx_main_v125 (ix1 e) j = ix2 e j := funext fun a => Fin.ext (by match a with | ⟨0, _⟩ => rfl | ⟨1, _⟩ => rfl)
  rw [hi, val_main_v124_apply, val_main_v123_apply, ref_centre3]
  simp only [Ideal.mulf_def, Ideal.subf_def]

end Cert.ReferenceIdeal.RefValues

end
-- ==== Proof.RefSupports.lean ====
/-
  The reference's four matrix products, entry by entry.

  For each of the four kernels k the reference takes the 128 × 128 matrix whose (i, o) entry is w(i, o, k) — cut out of
  the 128 × 128 × 4 array of weights as a 128 × 128 × 1 slab and read as a matrix — and multiplies the N × 128 array of
  features by it. Entry (n, o) of product k is therefore Σ_q x(n, q) · w(q, o, k): the sum is over the shared coordinate,
  the left factor is read at (n, q), and the right factor's matrix index (q, o) is carried through the change of shape
  (position q · 128 + o of a row-major 128 × 128 × 1 array is (q, o, 0)) and through the slab's offset k on the last axis.
-/
import proofs.«118816_j66984309948597_2_alg».proof.Proof.Gen.ReferenceIdeal.Read
import Idealize.ShloMosaic.Lib.ValueIdx

noncomputable section

namespace Cert.ReferenceIdeal.RefSupports

open Cert.ReferenceIdeal Cert.ReferenceIdeal.Gen Cert.ReferenceIdeal.Read Idealize.ShloMosaic Idealize.ShloMosaic.ValueIdx

/-- Entry `(n, o)` of the product for kernel 0: the features' row `n` against column `o` of the weights' slab 0. -/
theorem ref_support0 (x0 : (⟨S50000x128, .f32⟩ : BufTy).Contents (Elt Ideal)) (x2 : (⟨S128x128x4, .f32⟩ : BufTy).Contents (Elt Ideal))
    (n : Fin 50000) (o : Fin 128) :
    val_main_v23 (F := Ideal) x0 x2 (ix2 n o) = ∑ q : Fin 128, x0 (ix2 n q) * x2 (ix3 q o (0 : Fin 4)) := by
  rw [val_main_v23_apply]
  refine Finset.sum_congr rfl fun q _ => ?_
  have hq : q.val < 128 := q.isLt
  have ho : o.val < 128 := o.isLt
  have h1 : lidx_main_v23 (ix2 n o) q = ix2 n q := funext fun a => Fin.ext (by
    match a with
    | ⟨0, _⟩ => rfl
    | ⟨1, _⟩ => rfl)
  have h2 : idx_main_v21 (idx_main_v22 (ridx_main_v23 (ix2 n o) q)) = ix3 q o (0 : Fin 4) := funext fun a => Fin.ext (by
    match a with
    | ⟨0, _⟩ => show (q.val * 128 + o.val) / 128 = q.val; omega
    | ⟨1, _⟩ => show (q.val * 128 + o.val) / 1 % 128 = o.val; omega
    | ⟨2, _⟩ => rfl)
  rw [val_main_v22_apply, val_main_v21_apply, h1, h2]

/-- Entry `(n, o)` of the product for kernel 1: the features' row `n` against column `o` of the weights' slab 1. -/
theorem ref_support1 (x0 : (⟨S50000x128, .f32⟩ : BufTy).Contents (Elt Ideal)) (x2 : (⟨S128x128x4, .f32⟩ : BufTy).Contents (Elt Ideal))
    (n : Fin 50000) (o : Fin 128) :
    val_main_v54 (F := Ideal) x0 x2 (ix2 n o) = ∑ q : Fin 128, x0 (ix2 n q) * x2 (ix3 q o (1 : Fin 4)) := by
  rw [val_main_v54_apply]
  refine Finset.sum_congr rfl fun q _ => ?_
  have hq : q.val < 128 := q.isLt
  have ho : o.val < 128 := o.isLt
  have h1 : lidx_main_v54 (ix2 n o) q = ix2 n q := funext fun a => Fin.ext (by
    match a with
    | ⟨0, _⟩ => rfl
    | ⟨1, _⟩ => rfl)
  have h2 : idx_main_v52 (idx_main_v53 (ridx_main_v54 (ix2 n o) q)) = ix3 q o (1 : Fin 4) := funext fun a => Fin.ext (by
    match a with
    | ⟨0, _⟩ => show (q.val * 128 + o.val) / 128 = q.val; omega
    | ⟨1, _⟩ => show (q.val * 128 + o.val) / 1 % 128 = o.val; omega
    | ⟨2, _⟩ => rfl)
  rw [val_main_v53_apply, val_main_v52_apply, h1, h2]

/-- Entry `(n, o)` of the product for kernel 2: the features' row `n` against column `o` of the weights' slab 2. -/
theorem ref_support2 (x0 : (⟨S50000x128, .f32⟩ : BufTy).Contents (Elt Ideal)) (x2 : (⟨S128x128x4, .f32⟩ : BufTy).Contents (Elt Ideal))
    (n : Fin 50000) (o : Fin 128) :
    val_main_v85 (F := Ideal) x0 x2 (ix2 n o) = ∑ q : Fin 128, x0 (ix2 n q) * x2 (ix3 q o (2 : Fin 4)) := by
  rw [val_main_v85_apply]
  refine Finset.sum_congr rfl fun q _ => ?_
  have hq : q.val < 128 := q.isLt
  have ho : o.val < 128 := o.isLt
  have h1 : lidx_main_v85 (ix2 n o) q = ix2 n q := funext fun a => Fin.ext (by
    match a with
    | ⟨0, _⟩ => rfl
    | ⟨1, _⟩ => rfl)
  have h2 : idx_main_v83 (idx_main_v84 (ridx_main_v85 (ix2 n o) q)) = ix3 q o (2 : Fin 4) := funext fun a => Fin.ext (by
    match a with
    | ⟨0, _⟩ => show (q.val * 128 + o.val) / 128 = q.val; omega
    | ⟨1, _⟩ => show (q.val * 128 + o.val) / 1 % 128 = o.val; omega
    | ⟨2, _⟩ => rfl)
  rw [val_main_v84_apply, val_main_v83_apply, h1, h2]

/-- Entry `(n, o)` of the product for kernel 3: the features' row `n` against column `o` of the weights' slab 3. -/
theorem ref_support3 (x0 : (⟨S50000x128, .f32⟩ : BufTy).Contents (Elt Ideal)) (x2 : (⟨S128x128x4, .f32⟩ : BufTy).Contents (Elt Ideal))
    (n : Fin 50000) (o : Fin 128) :
    val_main_v116 (F := Ideal) x0 x2 (ix2 n o) = ∑ q : Fin 128, x0 (ix2 n q) * x2 (ix3 q o (3 : Fin 4)) := by
  rw [val_main_v116_apply]
  refine Finset.sum_congr rfl fun q _ => ?_
  have hq : q.val < 128 := q.isLt
  have ho : o.val < 128 := o.isLt
  have h1 : lidx_main_v116 (ix2 n o) q = ix2 n q := funext fun a => Fin.ext (by
    match a with
    | ⟨0, _⟩ => rfl
    | ⟨1, _⟩ => rfl)
  have h2 : idx_main_v114 (idx_main_v115 (ridx_main_v116 (ix2 n o) q)) = ix3 q o (3 : Fin 4) := funext fun a => Fin.ext (by
    match a with
    | ⟨0, _⟩ => show (q.val * 128 + o.val) / 128 = q.val; omega
    | ⟨1, _⟩ => show (q.val * 128 + o.val) / 1 % 128 = o.val; omega
    | ⟨2, _⟩ => rfl)
  rw [val_main_v115_apply, val_main_v114_apply, h1, h2]

end Cert.ReferenceIdeal.RefSupports

end
-- ==== Proof.ValueBridge.lean ====
/-
  The eight arrays the kernel program hands to the shared combination are the reference's.

  Weight k: column k of the Gaussian region's output; the region's output is the Gaussian weight of the coordinate
  differences (the region's value), the differences are the reference's (the first host stretch), and the
  reference's k-th weight stage is the same weight, entry by entry.

  Support k: column group k of the product region's output; the output is x times the weight tensor with its last
  two axes swapped and flattened, whose (q, 128·k + o) entry is the tensor's (q, o, k) entry — the (q, o) entry of
  the reference's k-th slice — so entry (n, o) of the group is Σ_q x(n,q) · w(q,o,k), the reference's k-th product.
-/
import proofs.«118816_j66984309948597_2_alg».proof.Proof.KernelFold
import proofs.«118816_j66984309948597_2_alg».proof.Proof.KernelValues
import proofs.«118816_j66984309948597_2_alg».proof.Proof.HostBridge
import proofs.«118816_j66984309948597_2_alg».proof.Proof.GaussRegion
import proofs.«118816_j66984309948597_2_alg».proof.Proof.MatmulRegion
import proofs.«118816_j66984309948597_2_alg».proof.Proof.RefValues
import proofs.«118816_j66984309948597_2_alg».proof.Proof.RefSupports

set_option maxRecDepth 16384

noncomputable section

namespace Cert.Proof.ValueBridge

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The coordinate differences the Gaussian region reads are the reference's. -/
theorem V1_diff (c : Dev nD) : V1 m ρ c main_v19
    = Cert.ReferenceIdeal.Read.val_main_v19 (F := Ideal) (m ((c : Thread nD τ).loc main_arg0)) (m ((c : Thread nD τ).loc main_arg1)) :=
  Cert.Proof.HostBridge.first_diff (W0 m ρ c)

/-- An entry of the swapped and flattened weight tensor. -/
theorem swapFlat_at (w : (⟨S128x128x4, .f32⟩ : BufTy).Contents (Elt Ideal)) (q : Fin 128) (g : Nat) (hg : g < 4) (o : Fin 128) :
    Cert.KernelIdeal.Fold.swapFlat w (ix2 q (⟨128 * g + o.val, by have := o.isLt; omega⟩ : Fin 512)) = w (ix3 q o (⟨g, hg⟩ : Fin 4)) :=
  Cert.EdgeConv.Layout.swapFlat_apply w transposes_S128x128x4_S128x4x128_0_2_1 shapeCasts_S128x4x128_S128x512 q ⟨g, hg⟩ o

theorem weight0 (c : Dev nD) :
    StableHlo.after (hostOps2 (F := Ideal)) (W4 m ρ c) (Proc.devRef .tc main_v29)
      = Cert.ReferenceIdeal.Read.val_main_v37 (F := Ideal) (m ((c : Thread nD τ).loc main_arg0)) (m ((c : Thread nD τ).loc main_arg1))
          (m ((c : Thread nD τ).loc main_arg4)) (m ((c : Thread nD τ).loc main_arg5)) := by
  rw [Cert.KernelIdeal.TailReads.tail_weight0, Cert.KernelIdeal.Fold.W4_v20, Cert.KernelIdeal.GaussRegion.gauss_final (V1 m ρ) c,
    Cert.KernelIdeal.Fold.V1_arg4, Cert.KernelIdeal.Fold.V1_arg5, V1_diff]
  refine funext (fun (i : S1600000.Idx) => ?_)
  obtain ⟨e, rfl⟩ : ∃ e : Fin 1600000, i = ix1 e := ⟨i 0, eq_ix1 i⟩
  rw [Cert.KernelIdeal.TailReads.colVec0_apply, Cert.EdgeConv.gaussArr_apply, Cert.ReferenceIdeal.RefValues.ref_weight0]

theorem support0 (c : Dev nD) :
    StableHlo.after (hostOps2 (F := Ideal)) (W4 m ρ c) (Proc.devRef .tc main_v27)
      = Cert.ReferenceIdeal.Read.val_main_v23 (F := Ideal) (m ((c : Thread nD τ).loc main_arg0)) (m ((c : Thread nD τ).loc main_arg2)) := by
  rw [Cert.KernelIdeal.TailReads.tail_support0, Cert.KernelIdeal.Fold.W4_v23, Cert.KernelIdeal.MatmulRegion.matmul_final (V3 m ρ) c,
    Cert.KernelIdeal.Fold.V3_arg0, Cert.KernelIdeal.Fold.V3_v22]
  refine funext (fun (i : S50000x128.Idx) => ?_)
  obtain ⟨n, o, rfl⟩ : ∃ (n : Fin 50000) (o : Fin 128), i = ix2 n o := ⟨i 0, i 1, eq_ix2 i⟩
  rw [Cert.KernelIdeal.TailReads.group0_apply, Cert.EdgeConv.prodArr_apply, Cert.ReferenceIdeal.RefSupports.ref_support0]
  unfold Cert.EdgeConv.prodAt
  refine Finset.sum_congr rfl fun q _ => ?_
  rw [swapFlat_at (m ((c : Thread nD τ).loc main_arg2)) q 0 (by decide) o]
  try rfl

theorem weight1 (c : Dev nD) :
    StableHlo.after (hostOps2 (F := Ideal)) (W4 m ρ c) (Proc.devRef .tc main_v47)
      = Cert.ReferenceIdeal.Read.val_main_v68 (F := Ideal) (m ((c : Thread nD τ).loc main_arg0)) (m ((c : Thread nD τ).loc main_arg1))
          (m ((c : Thread nD τ).loc main_arg4)) (m ((c : Thread nD τ).loc main_arg5)) := by
  rw [Cert.KernelIdeal.TailReads.tail_weight1, Cert.KernelIdeal.Fold.W4_v20, Cert.KernelIdeal.GaussRegion.gauss_final (V1 m ρ) c,
    Cert.KernelIdeal.Fold.V1_arg4, Cert.KernelIdeal.Fold.V1_arg5, V1_diff]
  refine funext (fun (i : S1600000.Idx) => ?_)
  obtain ⟨e, rfl⟩ : ∃ e : Fin 1600000, i = ix1 e := ⟨i 0, eq_ix1 i⟩
  rw [Cert.KernelIdeal.TailReads.colVec1_apply, Cert.EdgeConv.gaussArr_apply, Cert.ReferenceIdeal.RefValues.ref_weight1]

theorem support1 (c : Dev nD) :
    StableHlo.after (hostOps2 (F := Ideal)) (W4 m ρ c) (Proc.devRef .tc main_v45)
      = Cert.ReferenceIdeal.Read.val_main_v54 (F := Ideal) (m ((c : Thread nD τ).loc main_arg0)) (m ((c : Thread nD τ).loc main_arg2)) := by
  rw [Cert.KernelIdeal.TailReads.tail_support1, Cert.KernelIdeal.Fold.W4_v23, Cert.KernelIdeal.MatmulRegion.matmul_final (V3 m ρ) c,
    Cert.KernelIdeal.Fold.V3_arg0, Cert.KernelIdeal.Fold.V3_v22]
  refine funext (fun (i : S50000x128.Idx) => ?_)
  obtain ⟨n, o, rfl⟩ : ∃ (n : Fin 50000) (o : Fin 128), i = ix2 n o := ⟨i 0, i 1, eq_ix2 i⟩
  rw [Cert.KernelIdeal.TailReads.group1_apply, Cert.EdgeConv.prodArr_apply, Cert.ReferenceIdeal.RefSupports.ref_support1]
  unfold Cert.EdgeConv.prodAt
  refine Finset.sum_congr rfl fun q _ => ?_
  rw [swapFlat_at (m ((c : Thread nD τ).loc main_arg2)) q 1 (by decide) o]
  try rfl

theorem weight2 (c : Dev nD) :
    StableHlo.after (hostOps2 (F := Ideal)) (W4 m ρ c) (Proc.devRef .tc main_v65)
      = Cert.ReferenceIdeal.Read.val_main_v99 (F := Ideal) (m ((c : Thread nD τ).loc main_arg0)) (m ((c : Thread nD τ).loc main_arg1))
          (m ((c : Thread nD τ).loc main_arg4)) (m ((c : Thread nD τ).loc main_arg5)) := by
  rw [Cert.KernelIdeal.TailReads.tail_weight2, Cert.KernelIdeal.Fold.W4_v20, Cert.KernelIdeal.GaussRegion.gauss_final (V1 m ρ) c,
    Cert.KernelIdeal.Fold.V1_arg4, Cert.KernelIdeal.Fold.V1_arg5, V1_diff]
  refine funext (fun (i : S1600000.Idx) => ?_)
  obtain ⟨e, rfl⟩ : ∃ e : Fin 1600000, i = ix1 e := ⟨i 0, eq_ix1 i⟩
  rw [Cert.KernelIdeal.TailReads.colVec2_apply, Cert.EdgeConv.gaussArr_apply, Cert.ReferenceIdeal.RefValues.ref_weight2]

theorem support2 (c : Dev nD) :
    StableHlo.after (hostOps2 (F := Ideal)) (W4 m ρ c) (Proc.devRef .tc main_v63)
      = Cert.ReferenceIdeal.Read.val_main_v85 (F := Ideal) (m ((c : Thread nD τ).loc main_arg0)) (m ((c : Thread nD τ).loc main_arg2)) := by
  rw [Cert.KernelIdeal.TailReads.tail_support2, Cert.KernelIdeal.Fold.W4_v23, Cert.KernelIdeal.MatmulRegion.matmul_final (V3 m ρ) c,
    Cert.KernelIdeal.Fold.V3_arg0, Cert.KernelIdeal.Fold.V3_v22]
  refine funext (fun (i : S50000x128.Idx) => ?_)
  obtain ⟨n, o, rfl⟩ : ∃ (n : Fin 50000) (o : Fin 128), i = ix2 n o := ⟨i 0, i 1, eq_ix2 i⟩
  rw [Cert.KernelIdeal.TailReads.group2_apply, Cert.EdgeConv.prodArr_apply, Cert.ReferenceIdeal.RefSupports.ref_support2]
  unfold Cert.EdgeConv.prodAt
  refine Finset.sum_congr rfl fun q _ => ?_
  rw [swapFlat_at (m ((c : Thread nD τ).loc main_arg2)) q 2 (by decide) o]
  try rfl

theorem weight3 (c : Dev nD) :
    StableHlo.after (hostOps2 (F := Ideal)) (W4 m ρ c) (Proc.devRef .tc main_v83)
      = Cert.ReferenceIdeal.Read.val_main_v130 (F := Ideal) (m ((c : Thread nD τ).loc main_arg0)) (m ((c : Thread nD τ).loc main_arg1))
          (m ((c : Thread nD τ).loc main_arg4)) (m ((c : Thread nD τ).loc main_arg5)) := by
  rw [Cert.KernelIdeal.TailReads.tail_weight3, Cert.KernelIdeal.Fold.W4_v20, Cert.KernelIdeal.GaussRegion.gauss_final (V1 m ρ) c,
    Cert.KernelIdeal.Fold.V1_arg4, Cert.KernelIdeal.Fold.V1_arg5, V1_diff]
  refine funext (fun (i : S1600000.Idx) => ?_)
  obtain ⟨e, rfl⟩ : ∃ e : Fin 1600000, i = ix1 e := ⟨i 0, eq_ix1 i⟩
  rw [Cert.KernelIdeal.TailReads.colVec3_apply, Cert.EdgeConv.gaussArr_apply, Cert.ReferenceIdeal.RefValues.ref_weight3]

theorem support3 (c : Dev nD) :
    StableHlo.after (hostOps2 (F := Ideal)) (W4 m ρ c) (Proc.devRef .tc main_v81)
      = Cert.ReferenceIdeal.Read.val_main_v116 (F := Ideal) (m ((c : Thread nD τ).loc main_arg0)) (m ((c : Thread nD τ).loc main_arg2)) := by
  rw [Cert.KernelIdeal.TailReads.tail_support3, Cert.KernelIdeal.Fold.W4_v23, Cert.KernelIdeal.MatmulRegion.matmul_final (V3 m ρ) c,
    Cert.KernelIdeal.Fold.V3_arg0, Cert.KernelIdeal.Fold.V3_v22]
  refine funext (fun (i : S50000x128.Idx) => ?_)
  obtain ⟨n, o, rfl⟩ : ∃ (n : Fin 50000) (o : Fin 128), i = ix2 n o := ⟨i 0, i 1, eq_ix2 i⟩
  rw [Cert.KernelIdeal.TailReads.group3_apply, Cert.EdgeConv.prodArr_apply, Cert.ReferenceIdeal.RefSupports.ref_support3]
  unfold Cert.EdgeConv.prodAt
  refine Finset.sum_congr rfl fun q _ => ?_
  rw [swapFlat_at (m ((c : Thread nD τ).loc main_arg2)) q 3 (by decide) o]
  try rfl

end Cert.Proof.ValueBridge

end
-- ==== Proof.Result.lean ====
/-
  The kernel program's result is the reference's last stage of the same arguments: the last host stretch is the
  shared combination of the row and column index vectors, the bias, the four weight vectors and the four supports,
  each of which is the reference's.
-/
import proofs.«118816_j66984309948597_2_alg».proof.Proof.KernelTail
import proofs.«118816_j66984309948597_2_alg».proof.Proof.RefTail
import proofs.«118816_j66984309948597_2_alg».proof.Proof.ValueBridge

set_option maxRecDepth 16384

noncomputable section

namespace Cert.Proof.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem kernel_result (c : Dev nD) :
    W5 m ρ c (Proc.devRef .tc main_v100)
      = Cert.ReferenceIdeal.Read.val_main_v147 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [Cert.ReferenceIdeal.RefTail.val_result_eq]
  show StableHlo.after (hostOps2 (F := Ideal)) (W4 m ρ c) (Proc.devRef .tc main_v100) = _
  rw [Cert.KernelIdeal.Tail.after_tail (W4 m ρ c),
    Cert.Proof.ValueBridge.weight0, Cert.Proof.ValueBridge.weight1, Cert.Proof.ValueBridge.weight2, Cert.Proof.ValueBridge.weight3,
    Cert.Proof.ValueBridge.support0, Cert.Proof.ValueBridge.support1, Cert.Proof.ValueBridge.support2, Cert.Proof.ValueBridge.support3,
    Cert.KernelIdeal.Fold.W4_v1, Cert.KernelIdeal.Fold.W4_v3, Cert.KernelIdeal.Fold.W4_arg3,
    show W1 m ρ c (Proc.devRef .tc main_v1) = Cert.ReferenceIdeal.Read.val_main_v1 (F := Ideal) (m ((c : Thread nD τ).loc main_arg1))
      from Cert.Proof.HostBridge.first_row (W0 m ρ c),
    show W1 m ρ c (Proc.devRef .tc main_v3) = Cert.ReferenceIdeal.Read.val_main_v3 (F := Ideal) (m ((c : Thread nD τ).loc main_arg1))
      from Cert.Proof.HostBridge.first_col (W0 m ρ c)]

end Cert.Proof.Result

end
-- ==== Proof.lean ====
/-
  A graph convolution with Gaussian edge kernels: for N = 50000 nodes with 128 features x, E = 1600000 edges
  (row(e), col(e)), four kernels k with centres mu(·,k) in ℝ³ and precisions sg(0,k), a weight tensor w(i,o,k)
  and a bias b,

      out(n, ·) = b + Σ_k Σ_{e : row(e) = n}  exp( sg(0,k) · (-1/2) · ‖x(row e, 0:3) − x(col e, 0:3) − mu(·,k)‖² ) · (x · w(·,·,k))(col e, ·).

  The kernel program computes all four Gaussian weights in one grid of 200 blocks of 8000 edges and all four
  products x · w(·,·,k) at once, as x times the 128 × 512 matrix obtained from w by swapping its last two axes
  and flattening, in a grid of 25 blocks of 2000 rows; the reference computes each weight and each product by
  itself.  Around these, both programs run the same gathers, products, scatter-additions and sums.

  The proof: the kernel program's run names its result as the last host stretch applied to the two regions'
  outputs (`KernelRun`, `KernelFold`); each region's output is one whole-array function of what it reads
  (`GaussRegion`, `MatmulRegion`, against `Spec`); the last host stretch is one shared function `combine` of
  eleven arrays (`KernelTail`), and so is the reference's last stage (`RefTail`); the eleven arrays agree
  (`HostBridge`, `KernelValues`, `RefValues`, `RefSupports`, `ValueBridge`), hence so do the results (`Result`).
  At the exact values every step is the reading of a sum or a layout operation at an index; no law of the
  extended reals that could fail at an infinity is used, and the precondition is never opened.
-/
import proofs.«118816_j66984309948597_2_alg».proof.Defs
import proofs.«118816_j66984309948597_2_alg».proof.Proof.Gen.Kernel
import proofs.«118816_j66984309948597_2_alg».proof.Proof.Gen.Kernel.Skeleton
import proofs.«118816_j66984309948597_2_alg».proof.Proof.Gen.Kernel.Launch
import proofs.«118816_j66984309948597_2_alg».proof.Proof.Gen.Kernel.Points
import proofs.«118816_j66984309948597_2_alg».proof.Proof.Gen.Kernel.Frame
import proofs.«118816_j66984309948597_2_alg».proof.Proof.Gen.KernelIdeal
import proofs.«118816_j66984309948597_2_alg».proof.Proof.Gen.KernelIdeal.Skeleton
import proofs.«118816_j66984309948597_2_alg».proof.Proof.Gen.KernelIdeal.Launch
import proofs.«118816_j66984309948597_2_alg».proof.Proof.Gen.KernelIdeal.Points
import proofs.«118816_j66984309948597_2_alg».proof.Proof.Gen.KernelIdeal.Frame
import proofs.«118816_j66984309948597_2_alg».proof.Proof.Gen.ReferenceIdeal
import proofs.«118816_j66984309948597_2_alg».proof.Proof.Gen.Pre_finite_inputs
import proofs.«118816_j66984309948597_2_alg».proof.Proof.Gen.ReferenceIdeal.Run
import proofs.«118816_j66984309948597_2_alg».proof.Proof.Gen.ReferenceIdeal.Read
import proofs.«118816_j66984309948597_2_alg».proof.Proof.KernelRun
import proofs.«118816_j66984309948597_2_alg».proof.Proof.Result
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the reference's last stage of those
    arguments in their result buffers. -/
theorem algebraic : Cert.algebraic_KernelIdeal_ReferenceIdeal := by
  intro m ρ m' ρ' _ hagree
  refine ⟨fun c => Cert.ReferenceIdeal.Read.val_main_v147 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Proof.Result.kernel_result m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v147_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
